-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v67)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x34x128x128 : Shape := ⟨4, ![48, 34, 128, 128]⟩
abbrev S48x17x128x128 : Shape := ⟨4, ![48, 17, 128, 128]⟩
abbrev S48x30x17x2 : Shape := ⟨4, ![48, 30, 17, 2]⟩
abbrev S_ : Shape := ⟨0, ![]⟩
abbrev S48x17 : Shape := ⟨2, ![48, 17]⟩

class Facts : Prop where
  bcast_S_S48x34x128x128 : S_.BroadcastsInDim S48x34x128x128 (![] : Fin 0 → Fin S48x34x128x128.rank)
  reducesTo_S48x34x128x128_S_d0_1_2_3 : S48x34x128x128.ReducesTo [0, 1, 2, 3] S_
  h_S_ : 0 < S_.numel
  bcast_S_S48x17x128x128 : S_.BroadcastsInDim S48x17x128x128 (![] : Fin 0 → Fin S48x17x128x128.rank)
  reducesTo_S48x17x128x128_S_d0_1_2_3 : S48x17x128x128.ReducesTo [0, 1, 2, 3] S_
  reducesTo_S48x17x128x128_S48x17_d2_3 : S48x17x128x128.ReducesTo [2, 3] S48x17
  bcast_S_S48x17 : S_.BroadcastsInDim S48x17 (![] : Fin 0 → Fin S48x17.rank)
  reducesTo_S48x17_S_d0_1 : S48x17.ReducesTo [0, 1] S_

variable [Facts]

def fn {F : FTy → Type} [FloatOps F] (main_arg0 : FVec F S48x34x128x128 .f32) (main_arg1 : FVec F S48x17x128x128 .f32) (main_arg2 : IVec S48x30x17x2 32) : IVec S_ 1 :=
  let main_v0 : FVec F S48x34x128x128 .f32 := Host.absf main_arg0
  let main_cst : FVec F S_ .f32 := constant S_ .f32 0x7F800000#32
  let main_v1 : FVec F S48x34x128x128 .f32 := broadcastInDim S48x34x128x128 ![] bcast_S_S48x34x128x128 main_cst
  let main_v2 : IVec S48x34x128x128 1 := cmpf .olt main_v0 main_v1
  let main_c : IVec S_ 1 := constantI S_ 1 1#1
  let main_v3 : IVec S_ 1 := (fun x v => Host.reduce IntOp.andi x v reducesTo_S48x34x128x128_S_d0_1_2_3 h_S_) main_v2 main_c
  let main_v4 : FVec F S48x17x128x128 .f32 := Host.absf main_arg1
  let main_cst_0 : FVec F S_ .f32 := constant S_ .f32 0x7F800000#32
  let main_v5 : FVec F S48x17x128x128 .f32 := broadcastInDim S48x17x128x128 ![] bcast_S_S48x17x128x128 main_cst_0
  let main_v6 : IVec S48x17x128x128 1 := cmpf .olt main_v4 main_v5
  let main_c_1 : IVec S_ 1 := constantI S_ 1 1#1
  let main_v7 : IVec S_ 1 := (fun x v => Host.reduce IntOp.andi x v reducesTo_S48x17x128x128_S_d0_1_2_3 h_S_) main_v6 main_c_1
  let main_v8 : IVec S_ 1 := andi main_v3 main_v7
  let main_cst_2 : FVec F S_ .f32 := constant S_ .f32 0x00000000#32
  let main_v9 : FVec F S48x17 .f32 := (fun x v => Host.reduceAdd x v reducesTo_S48x17x128x128_S48x17_d2_3 h_S_) main_arg1 main_cst_2
  let main_cst_3 : FVec F S_ .f32 := constant S_ .f32 0x00000000#32
  let main_v10 : FVec F S48x17 .f32 := broadcastInDim S48x17 ![] bcast_S_S48x17 main_cst_3
  let main_v11 : IVec S48x17 1 := cmpf .ogt main_v9 main_v10
  let main_v12 : FVec F S48x17 .f32 := uitofp .f32 main_v11
  let main_cst_4 : FVec F S_ .f32 := constant S_ .f32 0x00000000#32
  let main_v13 : FVec F S_ .f32 := (fun x v => Host.reduceAdd x v reducesTo_S48x17_S_d0_1 h_S_) main_v12 main_cst_4
  let main_cst_5 : FVec F S_ .f32 := constant S_ .f32 0x00000000#32
  let main_v14 : IVec S_ 1 := cmpf .ogt main_v13 main_cst_5
  let main_v15 : IVec S_ 1 := andi main_v8 main_v14
  main_v15
-- ==== Kernel.lean ====
abbrev S48x34x128x128 : Shape := ⟨4, ![48, 34, 128, 128]⟩
abbrev S48x17x128x128 : Shape := ⟨4, ![48, 17, 128, 128]⟩
abbrev S48x30x17x2 : Shape := ⟨4, ![48, 30, 17, 2]⟩
abbrev S1x1 : Shape := ⟨2, ![1, 1]⟩
abbrev S6x17x128x128 : Shape := ⟨4, ![6, 17, 128, 128]⟩
abbrev S6x17x128 : Shape := ⟨3, ![6, 17, 128]⟩
abbrev S6x17 : Shape := ⟨2, ![6, 17]⟩
abbrev S6 : Shape := ⟨1, ![6]⟩
abbrev S6x1 : Shape := ⟨2, ![6, 1]⟩
abbrev S1 : Shape := ⟨1, ![1]⟩
abbrev S_ : Shape := ⟨0, ![]⟩
abbrev S48x278528 : Shape := ⟨2, ![48, 278528]⟩
abbrev S48x30x17x1 : Shape := ⟨4, ![48, 30, 17, 1]⟩
abbrev S48x30x17 : Shape := ⟨3, ![48, 30, 17]⟩
abbrev S48x30 : Shape := ⟨2, ![48, 30]⟩
abbrev S48x30x1 : Shape := ⟨3, ![48, 30, 1]⟩
abbrev S48 : Shape := ⟨1, ![48]⟩
abbrev S48x1x30 : Shape := ⟨3, ![48, 1, 30]⟩
abbrev S48x30x30 : Shape := ⟨3, ![48, 30, 30]⟩

abbrev nBuf : Space → Nat
  | .hbm => 101
  | .vmem => 7
  | .smem => 0
  | _ => 0

abbrev bufTy : (tb : Table) → Fin (tcTables nBuf tb) → BufTy
  | .hbm, ⟨0, _⟩ => ⟨S48x34x128x128, .f32⟩
  | .hbm, ⟨1, _⟩ => ⟨S48x17x128x128, .f32⟩
  | .hbm, ⟨2, _⟩ => ⟨S48x30x17x2, .i32⟩
  | .hbm, ⟨3, _⟩ => ⟨S1x1, .f32⟩
  | .hbm, ⟨4, _⟩ => ⟨S_, .f32⟩
  | .hbm, ⟨5, _⟩ => ⟨S48x17x128x128, .f32⟩
  | .hbm, ⟨6, _⟩ => ⟨S48x278528, .f32⟩
  | .hbm, ⟨7, _⟩ => ⟨S48x30x17x1, .i32⟩
  | .hbm, ⟨8, _⟩ => ⟨S48x30x17, .i32⟩
  | .hbm, ⟨9, _⟩ => ⟨S48x30x17x1, .i32⟩
  | .hbm, ⟨10, _⟩ => ⟨S48x30x17, .i32⟩
  | .hbm, ⟨11, _⟩ => ⟨S_, .i32⟩
  | .hbm, ⟨12, _⟩ => ⟨S48x30x17, .i32⟩
  | .hbm, ⟨13, _⟩ => ⟨S48x30x17, .i1⟩
  | .hbm, ⟨14, _⟩ => ⟨S48x30x17, .f32⟩
  | .hbm, ⟨15, _⟩ => ⟨S_, .i32⟩
  | .hbm, ⟨16, _⟩ => ⟨S48x30x17, .i32⟩
  | .hbm, ⟨17, _⟩ => ⟨S48x30x17, .i1⟩
  | .hbm, ⟨18, _⟩ => ⟨S_, .i32⟩
  | .hbm, ⟨19, _⟩ => ⟨S48x30x17, .i32⟩
  | .hbm, ⟨20, _⟩ => ⟨S48x30x17, .i32⟩
  | .hbm, ⟨21, _⟩ => ⟨S48x30x17, .i32⟩
  | .hbm, ⟨22, _⟩ => ⟨S48x30x17x1, .i32⟩
  | .hbm, ⟨23, _⟩ => ⟨S48x30x17, .f32⟩
  | .hbm, ⟨24, _⟩ => ⟨S_, .f32⟩
  | .hbm, ⟨25, _⟩ => ⟨S48x30, .f32⟩
  | .hbm, ⟨26, _⟩ => ⟨S_, .f32⟩
  | .hbm, ⟨27, _⟩ => ⟨S48x30, .f32⟩
  | .hbm, ⟨28, _⟩ => ⟨S48x30, .i1⟩
  | .hbm, ⟨29, _⟩ => ⟨S_, .f32⟩
  | .hbm, ⟨30, _⟩ => ⟨S_, .f32⟩
  | .hbm, ⟨31, _⟩ => ⟨S48x30, .f32⟩
  | .hbm, ⟨32, _⟩ => ⟨S48x30, .f32⟩
  | .hbm, ⟨33, _⟩ => ⟨S48x30x17, .f32⟩
  | .hbm, ⟨34, _⟩ => ⟨S_, .f32⟩
  | .hbm, ⟨35, _⟩ => ⟨S48x30, .f32⟩
  | .hbm, ⟨36, _⟩ => ⟨S48x30, .f32⟩
  | .hbm, ⟨37, _⟩ => ⟨S48x30x1, .f32⟩
  | .hbm, ⟨38, _⟩ => ⟨S48x30x17, .f32⟩
  | .hbm, ⟨39, _⟩ => ⟨S48x30x17, .f32⟩
  | .hbm, ⟨40, _⟩ => ⟨S48x30x17, .f32⟩
  | .hbm, ⟨41, _⟩ => ⟨S48x30x17, .f32⟩
  | .hbm, ⟨42, _⟩ => ⟨S_, .f32⟩
  | .hbm, ⟨43, _⟩ => ⟨S48x30, .f32⟩
  | .hbm, ⟨44, _⟩ => ⟨S48x30, .f32⟩
  | .hbm, ⟨45, _⟩ => ⟨S_, .f32⟩
  | .hbm, ⟨46, _⟩ => ⟨S_, .f32⟩
  | .hbm, ⟨47, _⟩ => ⟨S48x30, .f32⟩
  | .hbm, ⟨48, _⟩ => ⟨S48x30, .f32⟩
  | .hbm, ⟨49, _⟩ => ⟨S48x30, .i32⟩
  | .hbm, ⟨50, _⟩ => ⟨S_, .i32⟩
  | .hbm, ⟨51, _⟩ => ⟨S48, .i32⟩
  | .hbm, ⟨52, _⟩ => ⟨S48, .f32⟩
  | .hbm, ⟨53, _⟩ => ⟨S_, .f32⟩
  | .hbm, ⟨54, _⟩ => ⟨S48, .f32⟩
  | .hbm, ⟨55, _⟩ => ⟨S_, .f32⟩
  | .hbm, ⟨56, _⟩ => ⟨S48, .f32⟩
  | .hbm, ⟨57, _⟩ => ⟨S48, .f32⟩
  | .hbm, ⟨58, _⟩ => ⟨S48, .f32⟩
  | .hbm, ⟨59, _⟩ => ⟨S48x30x1, .f32⟩
  | .hbm, ⟨60, _⟩ => ⟨S48x1x30, .f32⟩
  | .hbm, ⟨61, _⟩ => ⟨S48x30x30, .f32⟩
  | .hbm, ⟨62, _⟩ => ⟨S48x30x30, .f32⟩
  | .hbm, ⟨63, _⟩ => ⟨S48x30x30, .f32⟩
  | .hbm, ⟨64, _⟩ => ⟨S48x30x1, .i1⟩
  | .hbm, ⟨65, _⟩ => ⟨S48x1x30, .i1⟩
  | .hbm, ⟨66, _⟩ => ⟨S48x30x30, .i1⟩
  | .hbm, ⟨67, _⟩ => ⟨S48x30x30, .i1⟩
  | .hbm, ⟨68, _⟩ => ⟨S48x30x30, .i1⟩
  | .hbm, ⟨69, _⟩ => ⟨S48x30x30, .f32⟩
  | .hbm, ⟨70, _⟩ => ⟨S48x30x30, .f32⟩
  | .hbm, ⟨71, _⟩ => ⟨S48x30x30, .f32⟩
  | .hbm, ⟨72, _⟩ => ⟨S_, .f32⟩
  | .hbm, ⟨73, _⟩ => ⟨S_, .f32⟩
  | .hbm, ⟨74, _⟩ => ⟨S48x30x30, .f32⟩
  | .hbm, ⟨75, _⟩ => ⟨S48x30x30, .f32⟩
  | .hbm, ⟨76, _⟩ => ⟨S_, .f32⟩
  | .hbm, ⟨77, _⟩ => ⟨S48, .f32⟩
  | .hbm, ⟨78, _⟩ => ⟨S48, .f32⟩
  | .hbm, ⟨79, _⟩ => ⟨S_, .f32⟩
  | .hbm, ⟨80, _⟩ => ⟨S48, .f32⟩
  | .hbm, ⟨81, _⟩ => ⟨S48, .f32⟩
  | .hbm, ⟨82, _⟩ => ⟨S48, .f32⟩
  | .hbm, ⟨83, _⟩ => ⟨S_, .f32⟩
  | .hbm, ⟨84, _⟩ => ⟨S48, .f32⟩
  | .hbm, ⟨85, _⟩ => ⟨S48, .i1⟩
  | .hbm, ⟨86, _⟩ => ⟨S_, .f32⟩
  | .hbm, ⟨87, _⟩ => ⟨S48, .f32⟩
  | .hbm, ⟨88, _⟩ => ⟨S48, .i1⟩
  | .hbm, ⟨89, _⟩ => ⟨S_, .f32⟩
  | .hbm, ⟨90, _⟩ => ⟨S_, .f32⟩
  | .hbm, ⟨91, _⟩ => ⟨S48, .f32⟩
  | .hbm, ⟨92, _⟩ => ⟨S48, .f32⟩
  | .hbm, ⟨93, _⟩ => ⟨S48, .f32⟩
  | .hbm, ⟨94, _⟩ => ⟨S_, .f32⟩
  | .hbm, ⟨95, _⟩ => ⟨S48, .f32⟩
  | .hbm, ⟨96, _⟩ => ⟨S48, .f32⟩
  | .hbm, ⟨97, _⟩ => ⟨S_, .f32⟩
  | .hbm, ⟨98, _⟩ => ⟨S_, .f32⟩
  | .hbm, ⟨99, _⟩ => ⟨S48, .f32⟩
  | .hbm, ⟨100, _⟩ => ⟨S48, .f32⟩
  | .local _ .vmem, ⟨0, _⟩ => ⟨S6x17x128x128, .f32⟩
  | .local _ .vmem, ⟨1, _⟩ => ⟨S6x17x128x128, .f32⟩
  | .local _ .vmem, ⟨2, _⟩ => ⟨S6x17x128x128, .f32⟩
  | .local _ .vmem, ⟨3, _⟩ => ⟨S6x17x128x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S48x34x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_call3_v0 : Ref sig .tc := ⟨.hbm, 90, rfl⟩
abbrev main_call3_v1 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_call4_v0 : Ref sig .tc := ⟨.hbm, 98, rfl⟩
abbrev main_call4_v1 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_25 : BitVec 32 := 0#32
  let v38 : BitVec 1 := Scalar.cmpi .ne v37 c0_i32_25
  v38

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x17x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6x17x128x128_S6x17x128x128_0_0_0_0 : ∀ a, (![0, 0, 0, 0] : Fin 4 → Nat) a + S6x17x128x128.size a ≤ S6x17x128x128.size a
  h_S6x17x128x128 : 0 < S6x17x128x128.numel
  reduces_S6x17x128x128_S6x17x128 : S6x17x128x128.Reduces [3] S6x17x128
  reduces_S6x17x128_S6x17 : S6x17x128.Reduces [2] S6x17
  natLt_1_32 : 1 < 32
  reduces_S6x17_S6 : S6x17.Reduces [1] S6
  shapeCasts_S6_S6x1 : S6.ShapeCasts S6x1
  reduces_S6x1_S1 : S6x1.Reduces [0] S1
  shapeCasts_S1_S1x1 : S1.ShapeCasts S1x1
  shapeCasts_S1x1_S_ : S1x1.ShapeCasts S_
  slices_S48x34x128x128_S48x17x128x128_0_17_0_0 : S48x34x128x128.Slices ![0, 17, 0, 0] S48x17x128x128
  shapeCasts_S48x17x128x128_S48x278528 : S48x17x128x128.ShapeCasts S48x278528
  slices_S48x30x17x2_S48x30x17x1_0_0_0_0 : S48x30x17x2.Slices ![0, 0, 0, 0] S48x30x17x1
  shapeCasts_S48x30x17x1_S48x30x17 : S48x30x17x1.ShapeCasts S48x30x17
  slices_S48x30x17x2_S48x30x17x1_0_0_0_1 : S48x30x17x2.Slices ![0, 0, 0, 1] S48x30x17x1
  bcast_S_S48x30x17 : S_.BroadcastsInDim S48x30x17 (![] : Fin 0 → Fin S48x30x17.rank)
  bcast_S48x30x17_S48x30x17x1_0_1_2 : S48x30x17.BroadcastsInDim S48x30x17x1 (![0, 1, 2] : Fin 3 → Fin S48x30x17x1.rank)
  reducesTo_S48x30x17_S48x30_d2 : S48x30x17.ReducesTo [2] S48x30
  h_S_ : 0 < S_.numel
  bcast_S_S48x30 : S_.BroadcastsInDim S48x30 (![] : Fin 0 → Fin S48x30.rank)
  bcast_S48x30_S48x30x1_0_1 : S48x30.BroadcastsInDim S48x30x1 (![0, 1] : Fin 2 → Fin S48x30x1.rank)
  bcast_S48x30x1_S48x30x17_0_1_2 : S48x30x1.BroadcastsInDim S48x30x17 (![0, 1, 2] : Fin 3 → Fin S48x30x17.rank)
  reducesTo_S48x30_S48_d1 : S48x30.ReducesTo [1] S48
  bcast_S_S48 : S_.BroadcastsInDim S48 (![] : Fin 0 → Fin S48.rank)
  bcast_S48x30_S48x1x30_0_2 : S48x30.BroadcastsInDim S48x1x30 (![0, 2] : Fin 2 → Fin S48x1x30.rank)
  bcast_S48x30x1_S48x30x30_0_1_2 : S48x30x1.BroadcastsInDim S48x30x30 (![0, 1, 2] : Fin 3 → Fin S48x30x30.rank)
  bcast_S48x1x30_S48x30x30_0_1_2 : S48x1x30.BroadcastsInDim S48x30x30 (![0, 1, 2] : Fin 3 → Fin S48x30x30.rank)
  bcast_S_S48x30x30 : S_.BroadcastsInDim S48x30x30 (![] : Fin 0 → Fin S48x30x30.rank)
  reducesTo_S48x30x30_S48_d1_2 : S48x30x30.ReducesTo [1, 2] S48
  gather_S48x278528_S48x30x17x1_S48x30x17_n_1_0_0_1_3_11_wf : GatherDims.WF S48x278528 S48x30x17x1 S48x30x17 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x17x128x128.size a ≤ S48x34x128x128.size a
  hwx0_0 : ∀ i : grid0.Coords, EltTy.bits .f32 = 32 ∨ (Rect.block (s := S48x34x128x128) S6x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x17x128x128.size a ≤ S48x17x128x128.size a
  hwx0_1 : ∀ i : grid0.Coords, EltTy.bits .f32 = 32 ∨ (Rect.block (s := S48x17x128x128) S6x17x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S48x278528_S48x30x17x1_S48x30x17_n_1_0_0_1_3_11 : GatherDims S48x278528 S48x30x17x1 S48x30x17 where
  offsetDims := []
  collapsedSliceDims := [1]
  operandBatchingDims := [0]
  startIndicesBatchingDims := [0]
  startIndexMap := [1]
  indexVectorDim := 3
  sliceSizes := ![1, 1]
  wf := gather_S48x278528_S48x30x17x1_S48x30x17_n_1_0_0_1_3_11_wf

abbrev win0_0 : Pipeline.Window sig grid0 :=
  Pipeline.Window.ofSpec (Memref.whole main_arg0) S6x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x17x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S48x34x128x128 : Shape := ⟨4, ![48, 34, 128, 128]⟩
abbrev S48x17x128x128 : Shape := ⟨4, ![48, 17, 128, 128]⟩
abbrev S48x30x17x2 : Shape := ⟨4, ![48, 30, 17, 2]⟩
abbrev S48x278528 : Shape := ⟨2, ![48, 278528]⟩
abbrev S_ : Shape := ⟨0, ![]⟩
abbrev S48x17 : Shape := ⟨2, ![48, 17]⟩
abbrev S48x30x17x1 : Shape := ⟨4, ![48, 30, 17, 1]⟩
abbrev S48x30x17 : Shape := ⟨3, ![48, 30, 17]⟩
abbrev S48x30 : Shape := ⟨2, ![48, 30]⟩
abbrev S48x30x1 : Shape := ⟨3, ![48, 30, 1]⟩
abbrev S48 : Shape := ⟨1, ![48]⟩
abbrev S48x1x30 : Shape := ⟨3, ![48, 1, 30]⟩
abbrev S48x30x30 : Shape := ⟨3, ![48, 30, 30]⟩

abbrev nBuf : Space → Nat
  | .hbm => 119
  | .vmem => 0
  | .smem => 0
  | _ => 0

abbrev bufTy : (tb : Table) → Fin (tcTables nBuf tb) → BufTy
  | .hbm, ⟨0, _⟩ => ⟨S48x34x128x128, .f32⟩
  | .hbm, ⟨1, _⟩ => ⟨S48x17x128x128, .f32⟩
  | .hbm, ⟨2, _⟩ => ⟨S48x30x17x2, .i32⟩
  | .hbm, ⟨3, _⟩ => ⟨S48x17x128x128, .f32⟩
  | .hbm, ⟨4, _⟩ => ⟨S48x17x128x128, .f32⟩
  | .hbm, ⟨5, _⟩ => ⟨S48x278528, .f32⟩
  | .hbm, ⟨6, _⟩ => ⟨S_, .f32⟩
  | .hbm, ⟨7, _⟩ => ⟨S48x17, .f32⟩
  | .hbm, ⟨8, _⟩ => ⟨S_, .f32⟩
  | .hbm, ⟨9, _⟩ => ⟨S48x17, .f32⟩
  | .hbm, ⟨10, _⟩ => ⟨S48x17, .i1⟩
  | .hbm, ⟨11, _⟩ => ⟨S48x17, .f32⟩
  | .hbm, ⟨12, _⟩ => ⟨S48x17x128x128, .f32⟩
  | .hbm, ⟨13, _⟩ => ⟨S48x17x128x128, .f32⟩
  | .hbm, ⟨14, _⟩ => ⟨S_, .f32⟩
  | .hbm, ⟨15, _⟩ => ⟨S48x17, .f32⟩
  | .hbm, ⟨16, _⟩ => ⟨S_, .f32⟩
  | .hbm, ⟨17, _⟩ => ⟨S48x17, .f32⟩
  | .hbm, ⟨18, _⟩ => ⟨S48x17, .f32⟩
  | .hbm, ⟨19, _⟩ => ⟨S48x17, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S48x30x17x1, .i32⟩
  | .hbm, ⟨26, _⟩ => ⟨S48x30x17, .i32⟩
  | .hbm, ⟨27, _⟩ => ⟨S48x30x17x1, .i32⟩
  | .hbm, ⟨28, _⟩ => ⟨S48x30x17, .i32⟩
  | .hbm, ⟨29, _⟩ => ⟨S_, .i32⟩
  | .hbm, ⟨30, _⟩ => ⟨S48x30x17, .i32⟩
  | .hbm, ⟨31, _⟩ => ⟨S48x30x17, .i1⟩
  | .hbm, ⟨32, _⟩ => ⟨S48x30x17, .f32⟩
  | .hbm, ⟨33, _⟩ => ⟨S_, .i32⟩
  | .hbm, ⟨34, _⟩ => ⟨S48x30x17, .i32⟩
  | .hbm, ⟨35, _⟩ => ⟨S48x30x17, .i1⟩
  | .hbm, ⟨36, _⟩ => ⟨S_, .i32⟩
  | .hbm, ⟨37, _⟩ => ⟨S48x30x17, .i32⟩
  | .hbm, ⟨38, _⟩ => ⟨S48x30x17, .i32⟩
  | .hbm, ⟨39, _⟩ => ⟨S48x30x17, .i32⟩
  | .hbm, ⟨40, _⟩ => ⟨S48x30x17x1, .i32⟩
  | .hbm, ⟨41, _⟩ => ⟨S48x30x17, .f32⟩
  | .hbm, ⟨42, _⟩ => ⟨S_, .f32⟩
  | .hbm, ⟨43, _⟩ => ⟨S48x30, .f32⟩
  | .hbm, ⟨44, _⟩ => ⟨S_, .f32⟩
  | .hbm, ⟨45, _⟩ => ⟨S48x30, .f32⟩
  | .hbm, ⟨46, _⟩ => ⟨S48x30, .i1⟩
  | .hbm, ⟨47, _⟩ => ⟨S_, .f32⟩
  | .hbm, ⟨48, _⟩ => ⟨S_, .f32⟩
  | .hbm, ⟨49, _⟩ => ⟨S48x30, .f32⟩
  | .hbm, ⟨50, _⟩ => ⟨S48x30, .f32⟩
  | .hbm, ⟨51, _⟩ => ⟨S48x30x17, .f32⟩
  | .hbm, ⟨52, _⟩ => ⟨S_, .f32⟩
  | .hbm, ⟨53, _⟩ => ⟨S48x30, .f32⟩
  | .hbm, ⟨54, _⟩ => ⟨S48x30, .f32⟩
  | .hbm, ⟨55, _⟩ => ⟨S48x30x1, .f32⟩
  | .hbm, ⟨56, _⟩ => ⟨S48x30x17, .f32⟩
  | .hbm, ⟨57, _⟩ => ⟨S48x30x17, .f32⟩
  | .hbm, ⟨58, _⟩ => ⟨S48x30x17, .f32⟩
  | .hbm, ⟨59, _⟩ => ⟨S48x30x17, .f32⟩
  | .hbm, ⟨60, _⟩ => ⟨S_, .f32⟩
  | .hbm, ⟨61, _⟩ => ⟨S48x30, .f32⟩
  | .hbm, ⟨62, _⟩ => ⟨S48x30, .f32⟩
  | .hbm, ⟨63, _⟩ => ⟨S_, .f32⟩
  | .hbm, ⟨64, _⟩ => ⟨S_, .f32⟩
  | .hbm, ⟨65, _⟩ => ⟨S48x30, .f32⟩
  | .hbm, ⟨66, _⟩ => ⟨S48x30, .f32⟩
  | .hbm, ⟨67, _⟩ => ⟨S48x30, .i32⟩
  | .hbm, ⟨68, _⟩ => ⟨S_, .i32⟩
  | .hbm, ⟨69, _⟩ => ⟨S48, .i32⟩
  | .hbm, ⟨70, _⟩ => ⟨S48, .f32⟩
  | .hbm, ⟨71, _⟩ => ⟨S_, .f32⟩
  | .hbm, ⟨72, _⟩ => ⟨S48, .f32⟩
  | .hbm, ⟨73, _⟩ => ⟨S_, .f32⟩
  | .hbm, ⟨74, _⟩ => ⟨S48, .f32⟩
  | .hbm, ⟨75, _⟩ => ⟨S48, .f32⟩
  | .hbm, ⟨76, _⟩ => ⟨S48, .f32⟩
  | .hbm, ⟨77, _⟩ => ⟨S48x30x1, .f32⟩
  | .hbm, ⟨78, _⟩ => ⟨S48x1x30, .f32⟩
  | .hbm, ⟨79, _⟩ => ⟨S48x30x30, .f32⟩
  | .hbm, ⟨80, _⟩ => ⟨S48x30x30, .f32⟩
  | .hbm, ⟨81, _⟩ => ⟨S48x30x30, .f32⟩
  | .hbm, ⟨82, _⟩ => ⟨S48x30x1, .i1⟩
  | .hbm, ⟨83, _⟩ => ⟨S48x1x30, .i1⟩
  | .hbm, ⟨84, _⟩ => ⟨S48x30x30, .i1⟩
  | .hbm, ⟨85, _⟩ => ⟨S48x30x30, .i1⟩
  | .hbm, ⟨86, _⟩ => ⟨S48x30x30, .i1⟩
  | .hbm, ⟨87, _⟩ => ⟨S48x30x30, .f32⟩
  | .hbm, ⟨88, _⟩ => ⟨S48x30x30, .f32⟩
  | .hbm, ⟨89, _⟩ => ⟨S48x30x30, .f32⟩
  | .hbm, ⟨90, _⟩ => ⟨S_, .f32⟩
  | .hbm, ⟨91, _⟩ => ⟨S_, .f32⟩
  | .hbm, ⟨92, _⟩ => ⟨S48x30x30, .f32⟩
  | .hbm, ⟨93, _⟩ => ⟨S48x30x30, .f32⟩
  | .hbm, ⟨94, _⟩ => ⟨S_, .f32⟩
  | .hbm, ⟨95, _⟩ => ⟨S48, .f32⟩
  | .hbm, ⟨96, _⟩ => ⟨S48, .f32⟩
  | .hbm, ⟨97, _⟩ => ⟨S_, .f32⟩
  | .hbm, ⟨98, _⟩ => ⟨S48, .f32⟩
  | .hbm, ⟨99, _⟩ => ⟨S48, .f32⟩
  | .hbm, ⟨100, _⟩ => ⟨S48, .f32⟩
  | .hbm, ⟨101, _⟩ => ⟨S_, .f32⟩
  | .hbm, ⟨102, _⟩ => ⟨S48, .f32⟩
  | .hbm, ⟨103, _⟩ => ⟨S48, .i1⟩
  | .hbm, ⟨104, _⟩ => ⟨S_, .f32⟩
  | .hbm, ⟨105, _⟩ => ⟨S48, .f32⟩
  | .hbm, ⟨106, _⟩ => ⟨S48, .i1⟩
  | .hbm, ⟨107, _⟩ => ⟨S_, .f32⟩
  | .hbm, ⟨108, _⟩ => ⟨S_, .f32⟩
  | .hbm, ⟨109, _⟩ => ⟨S48, .f32⟩
  | .hbm, ⟨110, _⟩ => ⟨S48, .f32⟩
  | .hbm, ⟨111, _⟩ => ⟨S48, .f32⟩
  | .hbm, ⟨112, _⟩ => ⟨S_, .f32⟩
  | .hbm, ⟨113, _⟩ => ⟨S48, .f32⟩
  | .hbm, ⟨114, _⟩ => ⟨S48, .f32⟩
  | .hbm, ⟨115, _⟩ => ⟨S_, .f32⟩
  | .hbm, ⟨116, _⟩ => ⟨S_, .f32⟩
  | .hbm, ⟨117, _⟩ => ⟨S48, .f32⟩
  | .hbm, ⟨118, _⟩ => ⟨S48, .f32⟩
  | _, _ => ⟨S48x34x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_call1_v0 : Ref sig .tc := ⟨.hbm, 64, rfl⟩
abbrev main_call1_v1 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_cst_20 : Ref sig .tc := ⟨.hbm, 104, rfl⟩
abbrev main_v73 : Ref sig .tc := ⟨.hbm, 105, rfl⟩
abbrev main_v74 : Ref sig .tc := ⟨.hbm, 106, rfl⟩
abbrev main_cst_21 : Ref sig .tc := ⟨.hbm, 107, rfl⟩
abbrev main_call3_v0 : Ref sig .tc := ⟨.hbm, 108, rfl⟩
abbrev main_call3_v1 : Ref sig .tc := ⟨.hbm, 109, rfl⟩
abbrev main_v75 : Ref sig .tc := ⟨.hbm, 110, rfl⟩
abbrev main_v76 : Ref sig .tc := ⟨.hbm, 111, rfl⟩
abbrev main_cst_22 : Ref sig .tc := ⟨.hbm, 112, rfl⟩
abbrev main_v77 : Ref sig .tc := ⟨.hbm, 113, rfl⟩
abbrev main_v78 : Ref sig .tc := ⟨.hbm, 114, rfl⟩
abbrev main_cst_23 : Ref sig .tc := ⟨.hbm, 115, rfl⟩
abbrev main_call4_v0 : Ref sig .tc := ⟨.hbm, 116, rfl⟩
abbrev main_call4_v1 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  slices_S48x34x128x128_S48x17x128x128_0_0_0_0 : S48x34x128x128.Slices ![0, 0, 0, 0] S48x17x128x128
  slices_S48x34x128x128_S48x17x128x128_0_17_0_0 : S48x34x128x128.Slices ![0, 17, 0, 0] S48x17x128x128
  shapeCasts_S48x17x128x128_S48x278528 : S48x17x128x128.ShapeCasts S48x278528
  reducesTo_S48x17x128x128_S48x17_d2_3 : S48x17x128x128.ReducesTo [2, 3] S48x17
  h_S_ : 0 < S_.numel
  bcast_S_S48x17 : S_.BroadcastsInDim S48x17 (![] : Fin 0 → Fin S48x17.rank)
  reducesTo_S48x17_S_d0_1 : S48x17.ReducesTo [0, 1] S_
  slices_S48x30x17x2_S48x30x17x1_0_0_0_0 : S48x30x17x2.Slices ![0, 0, 0, 0] S48x30x17x1
  shapeCasts_S48x30x17x1_S48x30x17 : S48x30x17x1.ShapeCasts S48x30x17
  slices_S48x30x17x2_S48x30x17x1_0_0_0_1 : S48x30x17x2.Slices ![0, 0, 0, 1] S48x30x17x1
  bcast_S_S48x30x17 : S_.BroadcastsInDim S48x30x17 (![] : Fin 0 → Fin S48x30x17.rank)
  bcast_S48x30x17_S48x30x17x1_0_1_2 : S48x30x17.BroadcastsInDim S48x30x17x1 (![0, 1, 2] : Fin 3 → Fin S48x30x17x1.rank)
  reducesTo_S48x30x17_S48x30_d2 : S48x30x17.ReducesTo [2] S48x30
  bcast_S_S48x30 : S_.BroadcastsInDim S48x30 (![] : Fin 0 → Fin S48x30.rank)
  bcast_S48x30_S48x30x1_0_1 : S48x30.BroadcastsInDim S48x30x1 (![0, 1] : Fin 2 → Fin S48x30x1.rank)
  bcast_S48x30x1_S48x30x17_0_1_2 : S48x30x1.BroadcastsInDim S48x30x17 (![0, 1, 2] : Fin 3 → Fin S48x30x17.rank)
  natLt_1_32 : 1 < 32
  reducesTo_S48x30_S48_d1 : S48x30.ReducesTo [1] S48
  bcast_S_S48 : S_.BroadcastsInDim S48 (![] : Fin 0 → Fin S48.rank)
  bcast_S48x30_S48x1x30_0_2 : S48x30.BroadcastsInDim S48x1x30 (![0, 2] : Fin 2 → Fin S48x1x30.rank)
  bcast_S48x30x1_S48x30x30_0_1_2 : S48x30x1.BroadcastsInDim S48x30x30 (![0, 1, 2] : Fin 3 → Fin S48x30x30.rank)
  bcast_S48x1x30_S48x30x30_0_1_2 : S48x1x30.BroadcastsInDim S48x30x30 (![0, 1, 2] : Fin 3 → Fin S48x30x30.rank)
  bcast_S_S48x30x30 : S_.BroadcastsInDim S48x30x30 (![] : Fin 0 → Fin S48x30x30.rank)
  reducesTo_S48x30x30_S48_d1_2 : S48x30x30.ReducesTo [1, 2] S48
  gather_S48x278528_S48x30x17x1_S48x30x17_n_1_0_0_1_3_11_wf : GatherDims.WF S48x278528 S48x30x17x1 S48x30x17 [] [1] [0] [1] [0] 3 ![1, 1]

variable [Facts₀]

def gather_S48x278528_S48x30x17x1_S48x30x17_n_1_0_0_1_3_11 : GatherDims S48x278528 S48x30x17x1 S48x30x17 where
  offsetDims := []
  collapsedSliceDims := [1]
  operandBatchingDims := [0]
  startIndicesBatchingDims := [0]
  startIndexMap := [1]
  indexVectorDim := 3
  sliceSizes := ![1, 1]
  wf := gather_S48x278528_S48x30x17x1_S48x30x17_n_1_0_0_1_3_11_wf

class Facts : Prop extends Facts₀ where

variable [Facts]
-- ==== Proof.KFrameKit.lean ====
/-
  What the frame of `Kernel` is stated over: the contents the region finds (no host operation comes before it), @main
  as the region followed by its ninety-seven later host operations in ten stretches, the facts about those
  operations the run needs (they touch only unscoped buffers, allocate nothing, and none writes an array the region
  stages), each window's block at a grid point, the two conditions of the body's branches decided over the eight
  points (the first holds at point 0 only, the second at point 7 only), where the result window is idle, and the
  region invariant spelt over the two scratch accumulators.
-/
import proofs.«174953_j30580167147966_1_alg».proof.Proof.Gen.Kernel.Launch
import proofs.«174953_j30580167147966_1_alg».proof.Proof.Gen.Kernel.Skeleton
import proofs.«174953_j30580167147966_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents (nothing runs before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tail : List (List (HloOp τ sig (Elt F))) :=
  [hostOps1, hostOps1_1, hostOps1_2, hostOps1_3, hostOps1_4, hostOps1_5, hostOps1_6, hostOps1_7, hostOps1_8, hostOps1_9]

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain

theorem tail_sub : ∀ ops ∈ (tail : List (List (HloOp τ sig (Elt F)))), ops.Forall fun op => op.bufs ⊆ StableHlo.tcRefs τ sig := by
  intro ops hops
  simp only [tail, List.mem_cons, List.mem_nil_iff, or_false] at hops
  rcases hops with rfl | rfl | rfl | rfl | rfl | rfl | rfl | rfl | rfl | rfl
  exacts [hostOps1_sub, hostOps1_1_sub, hostOps1_2_sub, hostOps1_3_sub, hostOps1_4_sub, hostOps1_5_sub, hostOps1_6_sub,
    hostOps1_7_sub, hostOps1_8_sub, hostOps1_9_sub]

/-- The later operations touch the staged arrays and the buffers that bypass the region, nothing else. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first branch (reset the accumulators) is taken where the grid coordinate is zero. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch (divide and store the result) is taken where the grid coordinate is seven. -/
abbrev condLast (i : grid0.Coords) : Prop := k0_cond2 i = 1#1
theorem hcondLast : ∀ t : Fin cfg0.N, condLast (grid0.coords t) ↔ t.val = 7 :=
  (by decide +kernel : ∀ t : Fin grid0.N, condLast (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the result window and its block is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-! ## The memrefs the body is called with -/

abbrev ms0_0 (t : Fin cfg0.N) : Memref sig .tc .vmem S6x17x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x17x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The numerator's and the denominator's scratch accumulators. -/
abbrev scN : Memref sig .tc .vmem S1x1 .f32 := Memref.whole cc0_scratch0
abbrev scD : Memref sig .tc .vmem S1x1 .f32 := Memref.whole cc0_scratch1

/-- The class's invariant with the two scratch accumulators owned at some contents. -/
theorem PhiA0_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.Kernel.Frame

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KRuns.lean ====
/-
  The kernel body run once, in each of the three situations the grid meets, on whole staging memrefs holding the
  point's two input blocks `x0` (predictions) and `x1` (targets):
  * at the first point the body stores zero into both accumulators, then adds the block's contribution: the
    numerator ends at `k0_pay7 x0 x1 0`, the denominator at `k0_pay1 (k0_pay6 x1) 0`;
  * at a middle point it adds the contribution to what the point before left (`xs0`, `xs1`);
  * at the last point it does the same and then stores the quotient `k0_pay2 den num` of the two updated
    accumulators into the result window.
  Every access goes through the buffer's whole rectangle, so a load reads the contents and a store replaces them.
-/
import proofs.«174953_j30580167147966_1_alg».proof.Proof.KFrameKit
import proofs.«174953_j30580167147966_1_alg».proof.Proof.LibWholeStores

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin S1x1.rank → ℕ) = fun _ => 0 := by funext a; fin_cases a <;> rfl
theorem hz4 : (![0, 0, 0, 0] : Fin S6x17x128x128.rank → ℕ) = fun _ => 0 := by funext a; fin_cases a <;> rfl

/-- A [1,1] buffer whose last store went through its whole rectangle reads as that store's payload. -/
theorem read_last (v : View sig .tc .vmem S1x1 .f32) (f : v.ty.Contents (Elt F)) (inb : ∀ a, (![0, 0] : Fin S1x1.rank → ℕ) a + S1x1.size a ≤ S1x1.size a)
    (w : S1x1.Idx → Elt F .f32) (L : List (View.Piece (Elt F) S1x1 .f32)) :
    v.read (Elt F) (v.writes (Elt F) f ((⟨Rect.unit (s := S1x1) ![0, 0] ![1, 1] inb, w⟩ : View.Piece (Elt F) S1x1 .f32) :: L)) = w :=
  Idealize.ShloMosaic.WholeStores.read_writes_whole_last v f hz2 inb w L

/-- A load of the whole [1,1] buffer after such a store reads the payload. -/
theorem load_last (v : View sig .tc .vmem S1x1 .f32) (inb : ∀ a, (![0, 0] : Fin S1x1.rank → ℕ) a + S1x1.size a ≤ S1x1.size a)
    (w : S1x1.Idx → Elt F .f32) (L : List (View.Piece (Elt F) S1x1 .f32)) :
    v.readCov ((⟨Rect.unit (s := S1x1) ![0, 0] ![1, 1] inb, w⟩ : View.Piece (Elt F) S1x1 .f32) :: L) (Rect.unit (s := S1x1) ![0, 0] ![1, 1] inb).toLoadRect = w :=
  Idealize.ShloMosaic.WholeStores.readCov_whole_last v hz2 inb w L

/-- A load of a whole [1,1] buffer reads its contents. -/
theorem load_whole2 {mr : Memref sig .tc .vmem S1x1 .f32} (hm : mr.IsWhole) (inb : ∀ a, (![0, 0] : Fin S1x1.rank → ℕ) a + S1x1.size a ≤ S1x1.size a)
    (X : S1x1.Idx → Elt F .f32) :
    mr.view.readAt (Elt F) (Rect.unit (s := S1x1) ![0, 0] ![1, 1] inb).toLoadRect (hm.unread X) = X :=
  Idealize.ShloMosaic.WholeStores.readAt_whole_unread hm hz2 inb X

/-- A load of a whole input block reads its contents. -/
theorem load_whole4 {mr : Memref sig .tc .vmem S6x17x128x128 .f32} (hm : mr.IsWhole)
    (inb : ∀ a, (![0, 0, 0, 0] : Fin S6x17x128x128.rank → ℕ) a + S6x17x128x128.size a ≤ S6x17x128x128.size a) (X : S6x17x128x128.Idx → Elt F .f32) :
    mr.view.readAt (Elt F) (Rect.unit (s := S6x17x128x128) ![0, 0, 0, 0] ![6, 17, 128, 128] inb).toLoadRect (hm.unread X) = X :=
  Idealize.ShloMosaic.WholeStores.readAt_whole_unread hm hz4 inb X

/-- Close `read (writes f pieces) = payload` for a buffer read and written through its whole rectangle. -/
local macro "close_read" : tactic => `(tactic| (
  ipureintro
  sl_unfold_run_names
  simp only [read_last, load_last, load_whole2, load_whole4]))

set_option maxHeartbeats 4000000 in
/-- The body at the first point. -/
theorem runFirst (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : condFirst i) (hc1 : ¬condLast i)
    (x0 x1 : Vec F S6x17x128x128 .f32) (x3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x3
            ∗ owns (c : Thread nD τ) arg4 fullShare (k0_pay7 x0 x1 (k0_pay3 (F := F)))
            ∗ owns (c : Thread nD τ) arg5 fullShare (k0_pay1 (k0_pay6 x1) (k0_pay4 (F := F)))) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%f2, %hf2, H2⟩, ⟨%d4, %fs0, -, HS0⟩, ⟨%d5, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists f2; isplitr; · ipureintro; exact hf2
    iexact H2
  isplitl [HS0]
  · iexists _; isplitr
    swap; · iexact HS0
    close_read
  · iexists _; isplitr
    swap; · iexact HS1
    close_read

set_option maxHeartbeats 4000000 in
/-- The body at a middle point. -/
theorem runMid (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬condFirst i) (hc1 : ¬condLast i)
    (x0 x1 : Vec F S6x17x128x128 .f32) (x3 : Vec F S1x1 .f32) (xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x3
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare x3
            ∗ owns (c : Thread nD τ) arg4 fullShare (k0_pay7 x0 x1 xs0)
            ∗ owns (c : Thread nD τ) arg5 fullShare (k0_pay1 (k0_pay6 x1) xs1)) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists f2; isplitr; · ipureintro; exact hf2
    iexact H2
  isplitl [HS0]
  · iexists _; isplitr
    swap; · iexact HS0
    close_read
  · iexists _; isplitr
    swap; · iexact HS1
    close_read

set_option maxHeartbeats 4000000 in
/-- The body at the last point. -/
theorem runLast (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬condFirst i) (hc1 : condLast i)
    (x0 x1 : Vec F S6x17x128x128 .f32) (xs0 xs1 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k0_pay2 (k0_pay1 (k0_pay6 x1) xs1) (k0_pay7 x0 x1 xs0))
            ∗ owns (c : Thread nD τ) arg4 fullShare (k0_pay7 x0 x1 xs0)
            ∗ owns (c : Thread nD τ) arg5 fullShare (k0_pay1 (k0_pay6 x1) xs1)) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    close_read
  isplitl [HS0]
  · iexists _; isplitr
    swap; · iexact HS0
    close_read
  · iexists _; isplitr
    swap; · iexact HS1
    close_read

end Cert.Kernel.Frame

end
-- ==== Proof.KTail.lean ====
/-
  Facts about the ninety-seven host operations that follow the region, one operation at a time: none allocates a
  buffer, and each writes exactly one buffer of its own, which is neither of the two staged argument arrays, nor the
  region's result array, nor the third argument. Hence the later operations leave the staged arrays alone (what the
  launch needs) and the third argument ends as it began.
-/
import proofs.«174953_j30580167147966_1_alg».proof.Proof.KFrameKit

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An operation writes none of the buffers whose contents the frame tracks past the region. -/
def Keeps (op : HloOp τ sig (Elt F)) : Prop :=
  ∀ b : Ref sig .tc, b = main_arg0 ∨ b = main_arg1 ∨ b = main_v0 ∨ b = main_arg2 → Proc.devRef (τ := τ) .tc b ∉ op.writes

/-- An operation whose one result buffer is none of the four keeps them. -/
theorem keeps_of (op : HloOp τ sig (Elt F)) (y : Ref sig .tc) (hw : op.writes = {Proc.devRef .tc y})
    (h0 : main_arg0 ≠ y) (h1 : main_arg1 ≠ y) (h2 : main_v0 ≠ y) (h3 : main_arg2 ≠ y) : Keeps op := by
  intro b hb
  rw [hw, Finset.mem_singleton]
  rcases hb with rfl | rfl | rfl | rfl
  exacts [StableHlo.devRef_ne_of_ne h0, StableHlo.devRef_ne_of_ne h1, StableHlo.devRef_ne_of_ne h2, StableHlo.devRef_ne_of_ne h3]

local macro "kp" : term => `(keeps_of _ _ rfl (by decide) (by decide) (by decide) (by decide))

theorem hostOps1_keeps : (hostOps1 : List (HloOp τ sig (Elt F))).Forall Keeps :=
  ⟨kp, kp, kp, kp, kp, kp, kp, kp, kp, kp, kp, kp, kp, kp, kp, kp, kp, kp, kp, kp, kp, kp, kp, kp, kp, kp⟩
theorem hostOps1_fresh : (hostOps1 : List (HloOp τ sig (Elt F))).Forall fun op => op.fresh = ∅ := by
  simp only [List.Forall]; repeat' constructor
theorem hostOps1_1_keeps : (hostOps1_1 : List (HloOp τ sig (Elt F))).Forall Keeps :=
  ⟨kp, kp, kp⟩
theorem hostOps1_1_fresh : (hostOps1_1 : List (HloOp τ sig (Elt F))).Forall fun op => op.fresh = ∅ := by
  simp only [List.Forall]; repeat' constructor
theorem hostOps1_2_keeps : (hostOps1_2 : List (HloOp τ sig (Elt F))).Forall Keeps :=
  ⟨kp, kp, kp, kp, kp, kp, kp, kp, kp, kp, kp, kp, kp⟩
theorem hostOps1_2_fresh : (hostOps1_2 : List (HloOp τ sig (Elt F))).Forall fun op => op.fresh = ∅ := by
  simp only [List.Forall]; repeat' constructor
theorem hostOps1_3_keeps : (hostOps1_3 : List (HloOp τ sig (Elt F))).Forall Keeps :=
  ⟨kp, kp, kp⟩
theorem hostOps1_3_fresh : (hostOps1_3 : List (HloOp τ sig (Elt F))).Forall fun op => op.fresh = ∅ := by
  simp only [List.Forall]; repeat' constructor
theorem hostOps1_4_keeps : (hostOps1_4 : List (HloOp τ sig (Elt F))).Forall Keeps :=
  ⟨kp, kp, kp, kp, kp, kp, kp, kp, kp, kp, kp, kp, kp, kp, kp, kp, kp, kp, kp, kp, kp, kp, kp, kp⟩
theorem hostOps1_4_fresh : (hostOps1_4 : List (HloOp τ sig (Elt F))).Forall fun op => op.fresh = ∅ := by
  simp only [List.Forall]; repeat' constructor
theorem hostOps1_5_keeps : (hostOps1_5 : List (HloOp τ sig (Elt F))).Forall Keeps :=
  ⟨kp, kp, kp⟩
theorem hostOps1_5_fresh : (hostOps1_5 : List (HloOp τ sig (Elt F))).Forall fun op => op.fresh = ∅ := by
  simp only [List.Forall]; repeat' constructor
theorem hostOps1_6_keeps : (hostOps1_6 : List (HloOp τ sig (Elt F))).Forall Keeps :=
  ⟨kp, kp, kp, kp, kp, kp, kp, kp, kp, kp, kp, kp, kp, kp⟩
theorem hostOps1_6_fresh : (hostOps1_6 : List (HloOp τ sig (Elt F))).Forall fun op => op.fresh = ∅ := by
  simp only [List.Forall]; repeat' constructor
theorem hostOps1_7_keeps : (hostOps1_7 : List (HloOp τ sig (Elt F))).Forall Keeps :=
  ⟨kp, kp, kp⟩
theorem hostOps1_7_fresh : (hostOps1_7 : List (HloOp τ sig (Elt F))).Forall fun op => op.fresh = ∅ := by
  simp only [List.Forall]; repeat' constructor
theorem hostOps1_8_keeps : (hostOps1_8 : List (HloOp τ sig (Elt F))).Forall Keeps :=
  ⟨kp, kp, kp, kp, kp⟩
theorem hostOps1_8_fresh : (hostOps1_8 : List (HloOp τ sig (Elt F))).Forall fun op => op.fresh = ∅ := by
  simp only [List.Forall]; repeat' constructor
theorem hostOps1_9_keeps : (hostOps1_9 : List (HloOp τ sig (Elt F))).Forall Keeps :=
  ⟨kp, kp, kp⟩
theorem hostOps1_9_fresh : (hostOps1_9 : List (HloOp τ sig (Elt F))).Forall fun op => op.fresh = ∅ := by
  simp only [List.Forall]; repeat' constructor

theorem tail_keeps : ∀ ops ∈ (tail : List (List (HloOp τ sig (Elt F)))), ops.Forall Keeps := by
  intro ops hops
  simp only [tail, List.mem_cons, List.mem_nil_iff, or_false] at hops
  rcases hops with rfl | rfl | rfl | rfl | rfl | rfl | rfl | rfl | rfl | rfl
  exacts [hostOps1_keeps, hostOps1_1_keeps, hostOps1_2_keeps, hostOps1_3_keeps, hostOps1_4_keeps, hostOps1_5_keeps, hostOps1_6_keeps, hostOps1_7_keeps, hostOps1_8_keeps, hostOps1_9_keeps]

/-- The later operations allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl
  exacts [(List.forall_iff_forall_mem.mp hostOps1_fresh) op hop, (List.forall_iff_forall_mem.mp hostOps1_1_fresh) op hop, (List.forall_iff_forall_mem.mp hostOps1_2_fresh) op hop, (List.forall_iff_forall_mem.mp hostOps1_3_fresh) op hop, (List.forall_iff_forall_mem.mp hostOps1_4_fresh) op hop, (List.forall_iff_forall_mem.mp hostOps1_5_fresh) op hop, (List.forall_iff_forall_mem.mp hostOps1_6_fresh) op hop, (List.forall_iff_forall_mem.mp hostOps1_7_fresh) op hop, (List.forall_iff_forall_mem.mp hostOps1_8_fresh) op hop, (List.forall_iff_forall_mem.mp hostOps1_9_fresh) op hop]

/-- And write no array the region stages. -/
theorem sfx_keeps : ∀ ops ∈ (tail : List (List (HloOp τ sig (Elt F)))), ∀ op ∈ ops,
    ∀ w, Proc.devRef .tc (Pipeline.arrRef spec0 w) ∉ op.writes := by
  intro ops hops op hop w
  have hk : Keeps op := (List.forall_iff_forall_mem.mp (tail_keeps ops hops)) op hop
  fin_cases w
  · exact hk main_arg0 (Or.inl rfl)
  · exact hk main_arg1 (Or.inr (Or.inl rfl))
  · exact hk main_v0 (Or.inr (Or.inr (Or.inl rfl)))

/-- A buffer none of the later operations writes holds after them what it held at the region's exit. -/
theorem tail_kept (W : Valuation τ sig (Elt F)) (b : Ref sig .tc) (hb : b = main_arg0 ∨ b = main_arg1 ∨ b = main_v0 ∨ b = main_arg2) :
    StableHlo.after (tail (F := F)).flatten W (Proc.devRef .tc b) = W (Proc.devRef .tc b) :=
  StableHlo.after_of_forall_not_mem _ W fun op hop => by
    obtain ⟨ops, hops, hop'⟩ := List.mem_flatten.mp hop
    exact (List.forall_iff_forall_mem.mp (tail_keeps ops hops)) op hop' b hb

end Cert.Kernel.Frame

end
-- ==== Proof.KAcc.lean ====
/-
  The two running sums the kernel keeps between grid points, as pure recursions over the points' input blocks.

  At grid point `n` the body reads the block `b0 n` of the predictions and the block `b1 n` of the targets and
  replaces each accumulator by itself plus that block's contribution: the numerator by the block's sum of masked
  per-channel mean squared errors (`k0_pay7`), the denominator by the block's count of channels whose target mass
  is positive (`k0_pay1` of `k0_pay6`). The first point starts both from the zero splats it has just stored
  (`k0_pay3`, `k0_pay4`). Stated over abstract block families so that the arithmetic can be studied apart from the
  pipeline that supplies the blocks.
-/
import proofs.«174953_j30580167147966_1_alg».proof.Proof.Gen.Kernel.Skeleton

noncomputable section

namespace Cert.Kernel.Acc

open Idealize.ShloMosaic Cert.Kernel Cert.Kernel.Gen

variable {F : FTy → Type} [FloatOps F]

/-- The numerator accumulator after point `n`. -/
def accN (b0 b1 : ℕ → Vec F S6x17x128x128 .f32) : ℕ → Vec F S1x1 .f32
  | 0 => k0_pay7 (b0 0) (b1 0) (k0_pay3 (F := F))
  | n + 1 => k0_pay7 (b0 (n + 1)) (b1 (n + 1)) (accN b0 b1 n)

/-- The denominator accumulator after point `n`. -/
def accD (b1 : ℕ → Vec F S6x17x128x128 .f32) : ℕ → Vec F S1x1 .f32
  | 0 => k0_pay1 (k0_pay6 (b1 0)) (k0_pay4 (F := F))
  | n + 1 => k0_pay1 (k0_pay6 (b1 (n + 1))) (accD b1 n)

theorem accN_zero (b0 b1 : ℕ → Vec F S6x17x128x128 .f32) :
    accN b0 b1 0 = k0_pay7 (b0 0) (b1 0) (k0_pay3 (F := F)) := rfl

theorem accN_succ (b0 b1 : ℕ → Vec F S6x17x128x128 .f32) (n : ℕ) :
    accN b0 b1 (n + 1) = k0_pay7 (b0 (n + 1)) (b1 (n + 1)) (accN b0 b1 n) := rfl

theorem accD_zero (b1 : ℕ → Vec F S6x17x128x128 .f32) :
    accD b1 0 = k0_pay1 (k0_pay6 (b1 0)) (k0_pay4 (F := F)) := rfl

theorem accD_succ (b1 : ℕ → Vec F S6x17x128x128 .f32) (n : ℕ) :
    accD b1 (n + 1) = k0_pay1 (k0_pay6 (b1 (n + 1))) (accD b1 n) := rfl

end Cert.Kernel.Acc

end
-- ==== Proof.KData.lean ====
/-
  The proof data of the region and the body's obligation at every grid point.

  After point `n` the numerator's scratch holds `accN n` and the denominator's `accD n`, the running sums over the
  blocks of points `0 … n`; the region invariant before a point that is not the first says exactly that of the point
  before, and before the first point it only owns the two scratch buffers. The input windows' staging buffers hold
  their blocks; the result window's buffer is left alone until the last point, where the body stores the quotient of
  the two final sums into it, and only there is it written back. The obligation follows by cases on the point: first,
  last, or in between.
-/
import proofs.«174953_j30580167147966_1_alg».proof.Proof.KRuns
import proofs.«174953_j30580167147966_1_alg».proof.Proof.KTail
import proofs.«174953_j30580167147966_1_alg».proof.Proof.KAcc

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks as families over ℕ (the point taken modulo the grid's eight). -/
def b0 (c : Dev nD) (n : ℕ) : Vec F S6x17x128x128 .f32 := iblk m c 0 ⟨n % 8, lt_of_lt_of_eq (Nat.mod_lt n (by decide)) N_0.symm⟩
def b1 (c : Dev nD) (n : ℕ) : Vec F S6x17x128x128 .f32 := iblk m c 1 ⟨n % 8, lt_of_lt_of_eq (Nat.mod_lt n (by decide)) N_0.symm⟩

theorem b0_at (c : Dev nD) (t : Fin cfg0.N) : b0 m c t.val = iblk m c 0 t := by
  have e : (⟨t.val % 8, lt_of_lt_of_eq (Nat.mod_lt t.val (by decide)) N_0.symm⟩ : Fin cfg0.N) = t :=
    Fin.ext (Nat.mod_eq_of_lt (lt_of_lt_of_eq t.isLt N_0))
  unfold b0; rw [e]
theorem b1_at (c : Dev nD) (t : Fin cfg0.N) : b1 m c t.val = iblk m c 1 t := by
  have e : (⟨t.val % 8, lt_of_lt_of_eq (Nat.mod_lt t.val (by decide)) N_0.symm⟩ : Fin cfg0.N) = t :=
    Fin.ext (Nat.mod_eq_of_lt (lt_of_lt_of_eq t.isLt N_0))
  unfold b1; rw [e]

/-- The numerator's and the denominator's running sums after point `n`. -/
def aN (c : Dev nD) (n : ℕ) : Vec F S1x1 .f32 := Cert.Kernel.Acc.accN (b0 m c) (b1 m c) n
def aD (c : Dev nD) (n : ℕ) : Vec F S1x1 .f32 := Cert.Kernel.Acc.accD (b1 m c) n

theorem aN_first (c : Dev nD) (t : Fin cfg0.N) (h : t.val = 0) :
    aN m c t.val = k0_pay7 (iblk m c 0 t) (iblk m c 1 t) (k0_pay3 (F := F)) := by
  have e0 := b0_at m c t; have e1 := b1_at m c t
  rw [h] at e0 e1 ⊢
  unfold aN; rw [Cert.Kernel.Acc.accN_zero, e0, e1]
theorem aN_next (c : Dev nD) (t : Fin cfg0.N) (h : t.val ≠ 0) :
    aN m c t.val = k0_pay7 (iblk m c 0 t) (iblk m c 1 t) (aN m c (t.val - 1)) := by
  have e0 := b0_at m c t; have e1 := b1_at m c t
  obtain ⟨n, hn⟩ : ∃ n, t.val = n + 1 := Nat.exists_eq_succ_of_ne_zero h
  rw [hn] at e0 e1 ⊢
  unfold aN; rw [Nat.add_sub_cancel, Cert.Kernel.Acc.accN_succ, e0, e1]
theorem aD_first (c : Dev nD) (t : Fin cfg0.N) (h : t.val = 0) :
    aD m c t.val = k0_pay1 (k0_pay6 (iblk m c 1 t)) (k0_pay4 (F := F)) := by
  have e1 := b1_at m c t
  rw [h] at e1 ⊢
  unfold aD; rw [Cert.Kernel.Acc.accD_zero, e1]
theorem aD_next (c : Dev nD) (t : Fin cfg0.N) (h : t.val ≠ 0) :
    aD m c t.val = k0_pay1 (k0_pay6 (iblk m c 1 t)) (aD m c (t.val - 1)) := by
  have e1 := b1_at m c t
  obtain ⟨n, hn⟩ : ∃ n, t.val = n + 1 := Nat.exists_eq_succ_of_ne_zero h
  rw [hn] at e1 ⊢
  unfold aD; rw [Nat.add_sub_cancel, Cert.Kernel.Acc.accD_succ, e1]

/-- The region invariant before position `n`: before the first point the two scratch buffers at anything; afterwards
    each at the running sum the point before left. The generator register at some state throughout. -/
def PhiS (c : Dev nD) : (n : ℕ) → n ≤ cfg0.N → sProp 𝕄
  | 0, _ => Pipeline.ΦA spec0 c
  | n + 1, _ => iprop(iprop(owns (c : Thread nD τ) scN fullShare (aN m c n) ∗ owns (c : Thread nD τ) scD fullShare (aD m c n)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare (aN m c n) ∗ owns (c : Thread nD τ) scD fullShare (aD m c n)) ∗ (∃ r, prngReg c r)) := rfl
theorem PhiS_pos (c : Dev nD) (n : ℕ) (h : n ≤ cfg0.N) (hz : n ≠ 0) :
    PhiS m c n h = iprop(iprop(owns (c : Thread nD τ) scN fullShare (aN m c (n - 1)) ∗ owns (c : Thread nD τ) scD fullShare (aD m c (n - 1))) ∗ (∃ r, prngReg c r)) := by
  cases n with
  | zero => exact absurd rfl hz
  | succ n => rfl

/-- The proof data: the arrays as the region finds them; after the body each input's buffer at its block and the result
    window's at the quotient of the running sums (consulted at the last point only); the invariant above; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (aD m c t.val) (aN m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (aD m c t.val) (aN m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt N_0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have hF : condFirst (grid0.coords t) := (hcondFirst t).mpr h0
    have hL : ¬condLast (grid0.coords t) := fun h => by have := (hcondLast t).mp h; omega
    rw [Dat.leavesExact_idle (dats m 0 c) 2 t (idleAt0_2 t hL) (noFlush0_2 t hL)]
    rw [aN_first m c t h0, aD_first m c t h0]
    rw [PhiS_castSucc m c t, PhiS_zero m c _ _ h0, PhiA0_eq]
    iintro ⟨⟨⟨HS0, HS1⟩, Hg⟩, Ho, ⟨%d0, H0⟩, ⟨%d1, H1⟩, ⟨%d2, H2⟩⟩
    iapply (runFirst c (grid0.coords t) _ _ _ _ _ _ _ _ _ _ hF hL (iblk m c 0 t) (iblk m c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexists _; iexact H2
  · have hF : ¬condFirst (grid0.coords t) := fun h => h0 ((hcondFirst t).mp h)
    rw [aN_next m c t h0, aD_next m c t h0]
    rw [PhiS_castSucc m c t, PhiS_pos m c _ _ h0]
    by_cases h7 : t.val = 7
    · have hL : condLast (grid0.coords t) := (hcondLast t).mpr h7
      rw [show (dats m 0 c).leavesExact 2 t = owns (c : Thread nD τ) (ms0_2 t) fullShare ((dats m 0 c).after 2 t) from by
        unfold Dat.leavesExact; rw [liveAt0_2 t hL], after0_2]
      rw [aN_next m c t h0, aD_next m c t h0]
      iintro ⟨⟨⟨HS0, HS1⟩, Hg⟩, Ho, ⟨%d0, H0⟩, ⟨%d1, H1⟩, ⟨%d2, H2⟩⟩
      iapply (runLast c (grid0.coords t) _ _ _ _ _ _ _ _ _ _ hF hL (iblk m c 0 t) (iblk m c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexact H2
    · have hL : ¬condLast (grid0.coords t) := fun h => h7 ((hcondLast t).mp h)
      rw [Dat.leavesExact_idle (dats m 0 c) 2 t (idleAt0_2 t hL) (noFlush0_2 t hL)]
      iintro ⟨⟨⟨HS0, HS1⟩, Hg⟩, Ho, ⟨%d0, H0⟩, ⟨%d1, H1⟩, ⟨%d2, H2⟩⟩
      iapply (runMid c (grid0.coords t) _ _ _ _ _ _ _ _ _ _ hF hL (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run -/

set_option backward.isDefEq.respectTransparency.types false in
/-- Every weakly fair execution of @main terminates; every array the region stages ends at what the proof data
    computes, every other unscoped buffer at what the later host operations leave from the region's exit. -/
theorem run_main : θ_run defs (onTc (τ := τ) (main (F := F))) (s₀ m ρ) (Pipeline.FramePost cfgs (dats m) 0 (Pipeline.afterTail₀ cfgs (dats m) 0 (V0 m) (tail (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

end Cert.Kernel.Frame

end
-- ==== Proof.KPost.lean ====
/-
  What the run leaves, read off its post. The two argument arrays the region stages end as they began (inputs are
  never written back); the third argument bypasses the region and no later operation writes it; the region's [1,1]
  result array is written back once, at the last point, where its one block is the whole array, so it ends holding
  the quotient of the two final running sums.
-/
import proofs.«174953_j30580167147966_1_alg».proof.Proof.KData

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the region's exit leaves on core `c`: the staged arrays at what the proof data computes, everything
    else as the region found it. -/
abbrev Wexit (c : Dev nD) : Valuation τ sig (Elt F) :=
  Pipeline.withArrays spec0 c (V0 m c) fun w => (dats m 0 c).arrAt w cfg0.N

theorem Wexit_arg0 (c : Dev nD) : Wexit m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem Wexit_arg1 (c : Dev nD) : Wexit m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
theorem Wexit_arg2 (c : Dev nD) : Wexit m c (Proc.devRef .tc main_arg2) = m ((c : Thread nD τ).loc main_arg2) :=
  Pipeline.withArrays_of_ne spec0 c _ _ main_arg2 (by intro w; fin_cases w <;> decide)
theorem Wexit_v0 (c : Dev nD) : Wexit m c (Proc.devRef .tc main_v0) = (dats m 0 c).arrAt 2 cfg0.N :=
  Pipeline.withArrays_arr spec0 launch0.win.arr_inj c _ _ 2

/-! ## The result array after the run -/

/-- The result window's one block sits at the origin at every point. -/
theorem idx_out : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The quotient of the two final running sums. -/
def quot (c : Dev nD) : S1x1.Idx → Elt F .f32 := k0_pay2 (aD m c 7) (aN m c 7)

/-- What the last point writes back is the quotient, read through the block (which is the whole array). -/
theorem flushed_eq (c : Dev nD) (t : Fin cfg0.N) (hf : (cfg0.win 2).flush t = true) :
    (dats m 0 c).flushed 2 t = ((cfg0.win 2).blk t).view.read (Elt F) (quot m c) := by
  show (cfg0.win 2).cut (grid0.coords t) ((dats m 0 c).after 2 t) = _
  rw [after0_2]
  have hN : t.val < 8 := lt_of_lt_of_eq t.isLt N_0
  have h7 : t.val = 7 := by have := (flush0_2 t).mp hf; omega
  rw [h7]
  obtain ⟨e0, e1⟩ := idx_out t
  funext j
  show k0_pay2 (aD m c 7) (aN m c 7) j = k0_pay2 (aD m c 7) (aN m c 7) (((cfg0.win 2).blk t).view.emb j)
  refine congrArg (k0_pay2 (aD m c 7) (aN m c 7)) ?_
  funext a; apply Fin.ext
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- An index of the result array lies in a point's block iff each coordinate is in the block's range. -/
theorem mem_blk_out (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The last point's block covers the whole result array. -/
theorem cover_out (i : S1x1.Idx) : ∃ t : Fin cfg0.N, (cfg0.win 2).flush t = true ∧ i ∈ ((cfg0.win 2).blk t).view.set := by
  refine ⟨t0_7, (flush0_2 t0_7).mpr rfl, ?_⟩
  rw [mem_blk_out]
  obtain ⟨e0, e1⟩ := idx_out t0_7
  intro a
  match a with
  | ⟨0, _⟩ => show win0_2.index t0_7 (0 : Fin 2) * 1 ≤ (i 0).val ∧ (i 0).val < win0_2.index t0_7 (0 : Fin 2) * 1 + 1; have hi : (i 0).val < 1 := (i 0).isLt; omega
  | ⟨1, _⟩ => show win0_2.index t0_7 (1 : Fin 2) * 1 ≤ (i 1).val ∧ (i 1).val < win0_2.index t0_7 (1 : Fin 2) * 1 + 1; have hi : (i 1).val < 1 := (i 1).isLt; omega

/-- The result array after the run is the quotient of the two final running sums. -/
theorem final_out (c : Dev nD) : (dats m 0 c).arrAt 2 cfg0.N = quot m c :=
  (dats m 0 c).arrAt_eq_of_cover 2 (quot m c) (fun t hf => flushed_eq m c t hf) cover_out

/-! ## The frame -/

theorem mem_rest_arg2 : main_arg2 ∈ Pipeline.restRefs sig spec0 :=
  Pipeline.mem_restRefs_of main_arg2 rfl (by intro w; fin_cases w <;> decide)

/-- What the run's post says of a buffer that bypasses the region: the later operations' fold from the region's exit. -/
theorem post_rest (r : PUnit × MemSt nD τ sig (Elt F))
    (h : Pipeline.FramePost cfgs (dats m) 0 (Pipeline.afterTail₀ cfgs (dats m) 0 (V0 m) (tail (F := F))) r) (c : Dev nD)
    (b : Ref sig .tc) (hb : b ∈ Pipeline.restRefs sig spec0) :
    r.2.mem ((c.tc : Thread nD τ).loc b) = StableHlo.after (tail (F := F)).flatten (Wexit m c) (Proc.devRef .tc b) :=
  (h c).2 b hb

theorem kept_arg0 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_arg1 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_arg2 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg2) = m ((c.tc : Thread nD τ).loc main_arg2) :=
  (post_rest m r h c main_arg2 mem_rest_arg2).trans
    ((tail_kept (Wexit m c) main_arg2 (Or.inr (Or.inr (Or.inr rfl)))).trans (Wexit_arg2 m c))

/-- THE FRAME: every weakly fair execution terminates, nothing faults, the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

end Cert.Kernel.Frame

end
-- ==== Proof.KIFrameKit.lean ====
/-
  What the frame of `KernelIdeal` is stated over: the contents the region finds (no host operation comes before it), @main
  as the region followed by its ninety-seven later host operations in ten stretches, the facts about those
  operations the run needs (they touch only unscoped buffers, allocate nothing, and none writes an array the region
  stages), each window's block at a grid point, the two conditions of the body's branches decided over the eight
  points (the first holds at point 0 only, the second at point 7 only), where the result window is idle, and the
  region invariant spelt over the two scratch accumulators.
-/
import proofs.«174953_j30580167147966_1_alg».proof.Proof.Gen.KernelIdeal.Launch
import proofs.«174953_j30580167147966_1_alg».proof.Proof.Gen.KernelIdeal.Skeleton
import proofs.«174953_j30580167147966_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents (nothing runs before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tail : List (List (HloOp τ sig (Elt F))) :=
  [hostOps1, hostOps1_1, hostOps1_2, hostOps1_3, hostOps1_4, hostOps1_5, hostOps1_6, hostOps1_7, hostOps1_8, hostOps1_9]

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain

theorem tail_sub : ∀ ops ∈ (tail : List (List (HloOp τ sig (Elt F)))), ops.Forall fun op => op.bufs ⊆ StableHlo.tcRefs τ sig := by
  intro ops hops
  simp only [tail, List.mem_cons, List.mem_nil_iff, or_false] at hops
  rcases hops with rfl | rfl | rfl | rfl | rfl | rfl | rfl | rfl | rfl | rfl
  exacts [hostOps1_sub, hostOps1_1_sub, hostOps1_2_sub, hostOps1_3_sub, hostOps1_4_sub, hostOps1_5_sub, hostOps1_6_sub,
    hostOps1_7_sub, hostOps1_8_sub, hostOps1_9_sub]

/-- The later operations touch the staged arrays and the buffers that bypass the region, nothing else. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first branch (reset the accumulators) is taken where the grid coordinate is zero. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch (divide and store the result) is taken where the grid coordinate is seven. -/
abbrev condLast (i : grid0.Coords) : Prop := k0_cond2 i = 1#1
theorem hcondLast : ∀ t : Fin cfg0.N, condLast (grid0.coords t) ↔ t.val = 7 :=
  (by decide +kernel : ∀ t : Fin grid0.N, condLast (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the result window and its block is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-! ## The memrefs the body is called with -/

abbrev ms0_0 (t : Fin cfg0.N) : Memref sig .tc .vmem S6x17x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x17x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The numerator's and the denominator's scratch accumulators. -/
abbrev scN : Memref sig .tc .vmem S1x1 .f32 := Memref.whole cc0_scratch0
abbrev scD : Memref sig .tc .vmem S1x1 .f32 := Memref.whole cc0_scratch1

/-- The class's invariant with the two scratch accumulators owned at some contents. -/
theorem PhiA0_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.KernelIdeal.Frame

end
-- ==== Proof.KIRuns.lean ====
/-
  The kernel body run once, in each of the three situations the grid meets, on whole staging memrefs holding the
  point's two input blocks `x0` (predictions) and `x1` (targets):
  * at the first point the body stores zero into both accumulators, then adds the block's contribution: the
    numerator ends at `k0_pay7 x0 x1 0`, the denominator at `k0_pay1 (k0_pay6 x1) 0`;
  * at a middle point it adds the contribution to what the point before left (`xs0`, `xs1`);
  * at the last point it does the same and then stores the quotient `k0_pay2 den num` of the two updated
    accumulators into the result window.
  Every access goes through the buffer's whole rectangle, so a load reads the contents and a store replaces them.
-/
import proofs.«174953_j30580167147966_1_alg».proof.Proof.KIFrameKit
import proofs.«174953_j30580167147966_1_alg».proof.Proof.LibWholeStores

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin S1x1.rank → ℕ) = fun _ => 0 := by funext a; fin_cases a <;> rfl
theorem hz4 : (![0, 0, 0, 0] : Fin S6x17x128x128.rank → ℕ) = fun _ => 0 := by funext a; fin_cases a <;> rfl

/-- A [1,1] buffer whose last store went through its whole rectangle reads as that store's payload. -/
theorem read_last (v : View sig .tc .vmem S1x1 .f32) (f : v.ty.Contents (Elt F)) (inb : ∀ a, (![0, 0] : Fin S1x1.rank → ℕ) a + S1x1.size a ≤ S1x1.size a)
    (w : S1x1.Idx → Elt F .f32) (L : List (View.Piece (Elt F) S1x1 .f32)) :
    v.read (Elt F) (v.writes (Elt F) f ((⟨Rect.unit (s := S1x1) ![0, 0] ![1, 1] inb, w⟩ : View.Piece (Elt F) S1x1 .f32) :: L)) = w :=
  Idealize.ShloMosaic.WholeStores.read_writes_whole_last v f hz2 inb w L

/-- A load of the whole [1,1] buffer after such a store reads the payload. -/
theorem load_last (v : View sig .tc .vmem S1x1 .f32) (inb : ∀ a, (![0, 0] : Fin S1x1.rank → ℕ) a + S1x1.size a ≤ S1x1.size a)
    (w : S1x1.Idx → Elt F .f32) (L : List (View.Piece (Elt F) S1x1 .f32)) :
    v.readCov ((⟨Rect.unit (s := S1x1) ![0, 0] ![1, 1] inb, w⟩ : View.Piece (Elt F) S1x1 .f32) :: L) (Rect.unit (s := S1x1) ![0, 0] ![1, 1] inb).toLoadRect = w :=
  Idealize.ShloMosaic.WholeStores.readCov_whole_last v hz2 inb w L

/-- A load of a whole [1,1] buffer reads its contents. -/
theorem load_whole2 {mr : Memref sig .tc .vmem S1x1 .f32} (hm : mr.IsWhole) (inb : ∀ a, (![0, 0] : Fin S1x1.rank → ℕ) a + S1x1.size a ≤ S1x1.size a)
    (X : S1x1.Idx → Elt F .f32) :
    mr.view.readAt (Elt F) (Rect.unit (s := S1x1) ![0, 0] ![1, 1] inb).toLoadRect (hm.unread X) = X :=
  Idealize.ShloMosaic.WholeStores.readAt_whole_unread hm hz2 inb X

/-- A load of a whole input block reads its contents. -/
theorem load_whole4 {mr : Memref sig .tc .vmem S6x17x128x128 .f32} (hm : mr.IsWhole)
    (inb : ∀ a, (![0, 0, 0, 0] : Fin S6x17x128x128.rank → ℕ) a + S6x17x128x128.size a ≤ S6x17x128x128.size a) (X : S6x17x128x128.Idx → Elt F .f32) :
    mr.view.readAt (Elt F) (Rect.unit (s := S6x17x128x128) ![0, 0, 0, 0] ![6, 17, 128, 128] inb).toLoadRect (hm.unread X) = X :=
  Idealize.ShloMosaic.WholeStores.readAt_whole_unread hm hz4 inb X

/-- Close `read (writes f pieces) = payload` for a buffer read and written through its whole rectangle. -/
local macro "close_read" : tactic => `(tactic| (
  ipureintro
  sl_unfold_run_names
  simp only [read_last, load_last, load_whole2, load_whole4]))

set_option maxHeartbeats 4000000 in
/-- The body at the first point. -/
theorem runFirst (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : condFirst i) (hc1 : ¬condLast i)
    (x0 x1 : Vec F S6x17x128x128 .f32) (x3 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x3
            ∗ owns (c : Thread nD τ) arg4 fullShare (k0_pay7 x0 x1 (k0_pay3 (F := F)))
            ∗ owns (c : Thread nD τ) arg5 fullShare (k0_pay1 (k0_pay6 x1) (k0_pay4 (F := F)))) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%f2, %hf2, H2⟩, ⟨%d4, %fs0, -, HS0⟩, ⟨%d5, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists f2; isplitr; · ipureintro; exact hf2
    iexact H2
  isplitl [HS0]
  · iexists _; isplitr
    swap; · iexact HS0
    close_read
  · iexists _; isplitr
    swap; · iexact HS1
    close_read

set_option maxHeartbeats 4000000 in
/-- The body at a middle point. -/
theorem runMid (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬condFirst i) (hc1 : ¬condLast i)
    (x0 x1 : Vec F S6x17x128x128 .f32) (x3 : Vec F S1x1 .f32) (xs0 xs1 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x3
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare x3
            ∗ owns (c : Thread nD τ) arg4 fullShare (k0_pay7 x0 x1 xs0)
            ∗ owns (c : Thread nD τ) arg5 fullShare (k0_pay1 (k0_pay6 x1) xs1)) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists f2; isplitr; · ipureintro; exact hf2
    iexact H2
  isplitl [HS0]
  · iexists _; isplitr
    swap; · iexact HS0
    close_read
  · iexists _; isplitr
    swap; · iexact HS1
    close_read

set_option maxHeartbeats 4000000 in
/-- The body at the last point. -/
theorem runLast (c : Dev nD) (i : grid0.Coords) (arg1 : Memref sig .tc .vmem S6x17x128x128 .f32) (harg1 : arg1.IsWhole) (arg2 : Memref sig .tc .vmem S6x17x128x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬condFirst i) (hc1 : condLast i)
    (x0 x1 : Vec F S6x17x128x128 .f32) (xs0 xs1 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k0_pay2 (k0_pay1 (k0_pay6 x1) xs1) (k0_pay7 x0 x1 xs0))
            ∗ owns (c : Thread nD τ) arg4 fullShare (k0_pay7 x0 x1 xs0)
            ∗ owns (c : Thread nD τ) arg5 fullShare (k0_pay1 (k0_pay6 x1) xs1)) -∗ K ⟨⟩))
      ⊢ wp frame (wpE (defs₀ (F := F)) Variants.none c none) E (cc0__hm_mse_kernel i arg1 harg1 arg2 harg2 arg3 harg3 arg4 harg4 arg5 harg5) K := by
  simp only [cc0__hm_mse_kernel_eq_skeleton]; unfold cc0__hm_mse_kernel_skel
  simp only [k0_part1_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    close_read
  isplitl [HS0]
  · iexists _; isplitr
    swap; · iexact HS0
    close_read
  · iexists _; isplitr
    swap; · iexact HS1
    close_read

end Cert.KernelIdeal.Frame

end
-- ==== Proof.KITail.lean ====
/-
  Facts about the ninety-seven host operations that follow the region, one operation at a time: none allocates a
  buffer, and each writes exactly one buffer of its own, which is neither of the two staged argument arrays, nor the
  region's result array, nor the third argument. Hence the later operations leave the staged arrays alone (what the
  launch needs) and the third argument ends as it began.
-/
import proofs.«174953_j30580167147966_1_alg».proof.Proof.KIFrameKit

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An operation writes none of the buffers whose contents the frame tracks past the region. -/
def Keeps (op : HloOp τ sig (Elt F)) : Prop :=
  ∀ b : Ref sig .tc, b = main_arg0 ∨ b = main_arg1 ∨ b = main_v0 ∨ b = main_arg2 → Proc.devRef (τ := τ) .tc b ∉ op.writes

/-- An operation whose one result buffer is none of the four keeps them. -/
theorem keeps_of (op : HloOp τ sig (Elt F)) (y : Ref sig .tc) (hw : op.writes = {Proc.devRef .tc y})
    (h0 : main_arg0 ≠ y) (h1 : main_arg1 ≠ y) (h2 : main_v0 ≠ y) (h3 : main_arg2 ≠ y) : Keeps op := by
  intro b hb
  rw [hw, Finset.mem_singleton]
  rcases hb with rfl | rfl | rfl | rfl
  exacts [StableHlo.devRef_ne_of_ne h0, StableHlo.devRef_ne_of_ne h1, StableHlo.devRef_ne_of_ne h2, StableHlo.devRef_ne_of_ne h3]

local macro "kp" : term => `(keeps_of _ _ rfl (by decide) (by decide) (by decide) (by decide))

theorem hostOps1_keeps : (hostOps1 : List (HloOp τ sig (Elt F))).Forall Keeps :=
  ⟨kp, kp, kp, kp, kp, kp, kp, kp, kp, kp, kp, kp, kp, kp, kp, kp, kp, kp, kp, kp, kp, kp, kp, kp, kp, kp⟩
theorem hostOps1_fresh : (hostOps1 : List (HloOp τ sig (Elt F))).Forall fun op => op.fresh = ∅ := by
  simp only [List.Forall]; repeat' constructor
theorem hostOps1_1_keeps : (hostOps1_1 : List (HloOp τ sig (Elt F))).Forall Keeps :=
  ⟨kp, kp, kp⟩
theorem hostOps1_1_fresh : (hostOps1_1 : List (HloOp τ sig (Elt F))).Forall fun op => op.fresh = ∅ := by
  simp only [List.Forall]; repeat' constructor
theorem hostOps1_2_keeps : (hostOps1_2 : List (HloOp τ sig (Elt F))).Forall Keeps :=
  ⟨kp, kp, kp, kp, kp, kp, kp, kp, kp, kp, kp, kp, kp⟩
theorem hostOps1_2_fresh : (hostOps1_2 : List (HloOp τ sig (Elt F))).Forall fun op => op.fresh = ∅ := by
  simp only [List.Forall]; repeat' constructor
theorem hostOps1_3_keeps : (hostOps1_3 : List (HloOp τ sig (Elt F))).Forall Keeps :=
  ⟨kp, kp, kp⟩
theorem hostOps1_3_fresh : (hostOps1_3 : List (HloOp τ sig (Elt F))).Forall fun op => op.fresh = ∅ := by
  simp only [List.Forall]; repeat' constructor
theorem hostOps1_4_keeps : (hostOps1_4 : List (HloOp τ sig (Elt F))).Forall Keeps :=
  ⟨kp, kp, kp, kp, kp, kp, kp, kp, kp, kp, kp, kp, kp, kp, kp, kp, kp, kp, kp, kp, kp, kp, kp, kp⟩
theorem hostOps1_4_fresh : (hostOps1_4 : List (HloOp τ sig (Elt F))).Forall fun op => op.fresh = ∅ := by
  simp only [List.Forall]; repeat' constructor
theorem hostOps1_5_keeps : (hostOps1_5 : List (HloOp τ sig (Elt F))).Forall Keeps :=
  ⟨kp, kp, kp⟩
theorem hostOps1_5_fresh : (hostOps1_5 : List (HloOp τ sig (Elt F))).Forall fun op => op.fresh = ∅ := by
  simp only [List.Forall]; repeat' constructor
theorem hostOps1_6_keeps : (hostOps1_6 : List (HloOp τ sig (Elt F))).Forall Keeps :=
  ⟨kp, kp, kp, kp, kp, kp, kp, kp, kp, kp, kp, kp, kp, kp⟩
theorem hostOps1_6_fresh : (hostOps1_6 : List (HloOp τ sig (Elt F))).Forall fun op => op.fresh = ∅ := by
  simp only [List.Forall]; repeat' constructor
theorem hostOps1_7_keeps : (hostOps1_7 : List (HloOp τ sig (Elt F))).Forall Keeps :=
  ⟨kp, kp, kp⟩
theorem hostOps1_7_fresh : (hostOps1_7 : List (HloOp τ sig (Elt F))).Forall fun op => op.fresh = ∅ := by
  simp only [List.Forall]; repeat' constructor
theorem hostOps1_8_keeps : (hostOps1_8 : List (HloOp τ sig (Elt F))).Forall Keeps :=
  ⟨kp, kp, kp, kp, kp⟩
theorem hostOps1_8_fresh : (hostOps1_8 : List (HloOp τ sig (Elt F))).Forall fun op => op.fresh = ∅ := by
  simp only [List.Forall]; repeat' constructor
theorem hostOps1_9_keeps : (hostOps1_9 : List (HloOp τ sig (Elt F))).Forall Keeps :=
  ⟨kp, kp, kp⟩
theorem hostOps1_9_fresh : (hostOps1_9 : List (HloOp τ sig (Elt F))).Forall fun op => op.fresh = ∅ := by
  simp only [List.Forall]; repeat' constructor

theorem tail_keeps : ∀ ops ∈ (tail : List (List (HloOp τ sig (Elt F)))), ops.Forall Keeps := by
  intro ops hops
  simp only [tail, List.mem_cons, List.mem_nil_iff, or_false] at hops
  rcases hops with rfl | rfl | rfl | rfl | rfl | rfl | rfl | rfl | rfl | rfl
  exacts [hostOps1_keeps, hostOps1_1_keeps, hostOps1_2_keeps, hostOps1_3_keeps, hostOps1_4_keeps, hostOps1_5_keeps, hostOps1_6_keeps, hostOps1_7_keeps, hostOps1_8_keeps, hostOps1_9_keeps]

/-- The later operations allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl | rfl
  exacts [(List.forall_iff_forall_mem.mp hostOps1_fresh) op hop, (List.forall_iff_forall_mem.mp hostOps1_1_fresh) op hop, (List.forall_iff_forall_mem.mp hostOps1_2_fresh) op hop, (List.forall_iff_forall_mem.mp hostOps1_3_fresh) op hop, (List.forall_iff_forall_mem.mp hostOps1_4_fresh) op hop, (List.forall_iff_forall_mem.mp hostOps1_5_fresh) op hop, (List.forall_iff_forall_mem.mp hostOps1_6_fresh) op hop, (List.forall_iff_forall_mem.mp hostOps1_7_fresh) op hop, (List.forall_iff_forall_mem.mp hostOps1_8_fresh) op hop, (List.forall_iff_forall_mem.mp hostOps1_9_fresh) op hop]

/-- And write no array the region stages. -/
theorem sfx_keeps : ∀ ops ∈ (tail : List (List (HloOp τ sig (Elt F)))), ∀ op ∈ ops,
    ∀ w, Proc.devRef .tc (Pipeline.arrRef spec0 w) ∉ op.writes := by
  intro ops hops op hop w
  have hk : Keeps op := (List.forall_iff_forall_mem.mp (tail_keeps ops hops)) op hop
  fin_cases w
  · exact hk main_arg0 (Or.inl rfl)
  · exact hk main_arg1 (Or.inr (Or.inl rfl))
  · exact hk main_v0 (Or.inr (Or.inr (Or.inl rfl)))

/-- A buffer none of the later operations writes holds after them what it held at the region's exit. -/
theorem tail_kept (W : Valuation τ sig (Elt F)) (b : Ref sig .tc) (hb : b = main_arg0 ∨ b = main_arg1 ∨ b = main_v0 ∨ b = main_arg2) :
    StableHlo.after (tail (F := F)).flatten W (Proc.devRef .tc b) = W (Proc.devRef .tc b) :=
  StableHlo.after_of_forall_not_mem _ W fun op hop => by
    obtain ⟨ops, hops, hop'⟩ := List.mem_flatten.mp hop
    exact (List.forall_iff_forall_mem.mp (tail_keeps ops hops)) op hop' b hb

end Cert.KernelIdeal.Frame

end
-- ==== Proof.Acc.lean ====
/-
  The two running sums the kernel keeps between grid points, as pure recursions over the points' input blocks.

  At grid point `n` the body reads the block `b0 n` of the predictions and the block `b1 n` of the targets and
  replaces each accumulator by itself plus that block's contribution: the numerator by the block's sum of masked
  per-channel mean squared errors (`k0_pay7`), the denominator by the block's count of channels whose target mass
  is positive (`k0_pay1` of `k0_pay6`). The first point starts both from the zero splats it has just stored
  (`k0_pay3`, `k0_pay4`). Stated over abstract block families so that the arithmetic can be studied apart from the
  pipeline that supplies the blocks.
-/
import proofs.«174953_j30580167147966_1_alg».proof.Proof.Gen.KernelIdeal.Skeleton

noncomputable section

namespace Cert.KernelIdeal.Acc

open Idealize.ShloMosaic Cert.KernelIdeal Cert.KernelIdeal.Gen

variable {F : FTy → Type} [FloatOps F]

/-- The numerator accumulator after point `n`. -/
def accN (b0 b1 : ℕ → Vec F S6x17x128x128 .f32) : ℕ → Vec F S1x1 .f32
  | 0 => k0_pay7 (b0 0) (b1 0) (k0_pay3 (F := F))
  | n + 1 => k0_pay7 (b0 (n + 1)) (b1 (n + 1)) (accN b0 b1 n)

/-- The denominator accumulator after point `n`. -/
def accD (b1 : ℕ → Vec F S6x17x128x128 .f32) : ℕ → Vec F S1x1 .f32
  | 0 => k0_pay1 (k0_pay6 (b1 0)) (k0_pay4 (F := F))
  | n + 1 => k0_pay1 (k0_pay6 (b1 (n + 1))) (accD b1 n)

theorem accN_zero (b0 b1 : ℕ → Vec F S6x17x128x128 .f32) :
    accN b0 b1 0 = k0_pay7 (b0 0) (b1 0) (k0_pay3 (F := F)) := rfl

theorem accN_succ (b0 b1 : ℕ → Vec F S6x17x128x128 .f32) (n : ℕ) :
    accN b0 b1 (n + 1) = k0_pay7 (b0 (n + 1)) (b1 (n + 1)) (accN b0 b1 n) := rfl

theorem accD_zero (b1 : ℕ → Vec F S6x17x128x128 .f32) :
    accD b1 0 = k0_pay1 (k0_pay6 (b1 0)) (k0_pay4 (F := F)) := rfl

theorem accD_succ (b1 : ℕ → Vec F S6x17x128x128 .f32) (n : ℕ) :
    accD b1 (n + 1) = k0_pay1 (k0_pay6 (b1 (n + 1))) (accD b1 n) := rfl

end Cert.KernelIdeal.Acc

end
-- ==== Proof.KIData.lean ====
/-
  The proof data of the region and the body's obligation at every grid point.

  After point `n` the numerator's scratch holds `accN n` and the denominator's `accD n`, the running sums over the
  blocks of points `0 … n`; the region invariant before a point that is not the first says exactly that of the point
  before, and before the first point it only owns the two scratch buffers. The input windows' staging buffers hold
  their blocks; the result window's buffer is left alone until the last point, where the body stores the quotient of
  the two final sums into it, and only there is it written back. The obligation follows by cases on the point: first,
  last, or in between.
-/
import proofs.«174953_j30580167147966_1_alg».proof.Proof.KIRuns
import proofs.«174953_j30580167147966_1_alg».proof.Proof.KITail
import proofs.«174953_j30580167147966_1_alg».proof.Proof.Acc

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks as families over ℕ (the point taken modulo the grid's eight). -/
def b0 (c : Dev nD) (n : ℕ) : Vec F S6x17x128x128 .f32 := iblk m c 0 ⟨n % 8, lt_of_lt_of_eq (Nat.mod_lt n (by decide)) N_0.symm⟩
def b1 (c : Dev nD) (n : ℕ) : Vec F S6x17x128x128 .f32 := iblk m c 1 ⟨n % 8, lt_of_lt_of_eq (Nat.mod_lt n (by decide)) N_0.symm⟩

theorem b0_at (c : Dev nD) (t : Fin cfg0.N) : b0 m c t.val = iblk m c 0 t := by
  have e : (⟨t.val % 8, lt_of_lt_of_eq (Nat.mod_lt t.val (by decide)) N_0.symm⟩ : Fin cfg0.N) = t :=
    Fin.ext (Nat.mod_eq_of_lt (lt_of_lt_of_eq t.isLt N_0))
  unfold b0; rw [e]
theorem b1_at (c : Dev nD) (t : Fin cfg0.N) : b1 m c t.val = iblk m c 1 t := by
  have e : (⟨t.val % 8, lt_of_lt_of_eq (Nat.mod_lt t.val (by decide)) N_0.symm⟩ : Fin cfg0.N) = t :=
    Fin.ext (Nat.mod_eq_of_lt (lt_of_lt_of_eq t.isLt N_0))
  unfold b1; rw [e]

/-- The numerator's and the denominator's running sums after point `n`. -/
def aN (c : Dev nD) (n : ℕ) : Vec F S1x1 .f32 := Cert.KernelIdeal.Acc.accN (b0 m c) (b1 m c) n
def aD (c : Dev nD) (n : ℕ) : Vec F S1x1 .f32 := Cert.KernelIdeal.Acc.accD (b1 m c) n

theorem aN_first (c : Dev nD) (t : Fin cfg0.N) (h : t.val = 0) :
    aN m c t.val = k0_pay7 (iblk m c 0 t) (iblk m c 1 t) (k0_pay3 (F := F)) := by
  have e0 := b0_at m c t; have e1 := b1_at m c t
  rw [h] at e0 e1 ⊢
  unfold aN; rw [Cert.KernelIdeal.Acc.accN_zero, e0, e1]
theorem aN_next (c : Dev nD) (t : Fin cfg0.N) (h : t.val ≠ 0) :
    aN m c t.val = k0_pay7 (iblk m c 0 t) (iblk m c 1 t) (aN m c (t.val - 1)) := by
  have e0 := b0_at m c t; have e1 := b1_at m c t
  obtain ⟨n, hn⟩ : ∃ n, t.val = n + 1 := Nat.exists_eq_succ_of_ne_zero h
  rw [hn] at e0 e1 ⊢
  unfold aN; rw [Nat.add_sub_cancel, Cert.KernelIdeal.Acc.accN_succ, e0, e1]
theorem aD_first (c : Dev nD) (t : Fin cfg0.N) (h : t.val = 0) :
    aD m c t.val = k0_pay1 (k0_pay6 (iblk m c 1 t)) (k0_pay4 (F := F)) := by
  have e1 := b1_at m c t
  rw [h] at e1 ⊢
  unfold aD; rw [Cert.KernelIdeal.Acc.accD_zero, e1]
theorem aD_next (c : Dev nD) (t : Fin cfg0.N) (h : t.val ≠ 0) :
    aD m c t.val = k0_pay1 (k0_pay6 (iblk m c 1 t)) (aD m c (t.val - 1)) := by
  have e1 := b1_at m c t
  obtain ⟨n, hn⟩ : ∃ n, t.val = n + 1 := Nat.exists_eq_succ_of_ne_zero h
  rw [hn] at e1 ⊢
  unfold aD; rw [Nat.add_sub_cancel, Cert.KernelIdeal.Acc.accD_succ, e1]

/-- The region invariant before position `n`: before the first point the two scratch buffers at anything; afterwards
    each at the running sum the point before left. The generator register at some state throughout. -/
def PhiS (c : Dev nD) : (n : ℕ) → n ≤ cfg0.N → sProp 𝕄
  | 0, _ => Pipeline.ΦA spec0 c
  | n + 1, _ => iprop(iprop(owns (c : Thread nD τ) scN fullShare (aN m c n) ∗ owns (c : Thread nD τ) scD fullShare (aD m c n)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scN fullShare (aN m c n) ∗ owns (c : Thread nD τ) scD fullShare (aD m c n)) ∗ (∃ r, prngReg c r)) := rfl
theorem PhiS_pos (c : Dev nD) (n : ℕ) (h : n ≤ cfg0.N) (hz : n ≠ 0) :
    PhiS m c n h = iprop(iprop(owns (c : Thread nD τ) scN fullShare (aN m c (n - 1)) ∗ owns (c : Thread nD τ) scD fullShare (aD m c (n - 1))) ∗ (∃ r, prngReg c r)) := by
  cases n with
  | zero => exact absurd rfl hz
  | succ n => rfl

/-- The proof data: the arrays as the region finds them; after the body each input's buffer at its block and the result
    window's at the quotient of the running sums (consulted at the last point only); the invariant above; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (aD m c t.val) (aN m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (aD m c t.val) (aN m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt N_0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have hF : condFirst (grid0.coords t) := (hcondFirst t).mpr h0
    have hL : ¬condLast (grid0.coords t) := fun h => by have := (hcondLast t).mp h; omega
    rw [Dat.leavesExact_idle (dats m 0 c) 2 t (idleAt0_2 t hL) (noFlush0_2 t hL)]
    rw [aN_first m c t h0, aD_first m c t h0]
    rw [PhiS_castSucc m c t, PhiS_zero m c _ _ h0, PhiA0_eq]
    iintro ⟨⟨⟨HS0, HS1⟩, Hg⟩, Ho, ⟨%d0, H0⟩, ⟨%d1, H1⟩, ⟨%d2, H2⟩⟩
    iapply (runFirst c (grid0.coords t) _ _ _ _ _ _ _ _ _ _ hF hL (iblk m c 0 t) (iblk m c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexists _; iexact H2
  · have hF : ¬condFirst (grid0.coords t) := fun h => h0 ((hcondFirst t).mp h)
    rw [aN_next m c t h0, aD_next m c t h0]
    rw [PhiS_castSucc m c t, PhiS_pos m c _ _ h0]
    by_cases h7 : t.val = 7
    · have hL : condLast (grid0.coords t) := (hcondLast t).mpr h7
      rw [show (dats m 0 c).leavesExact 2 t = owns (c : Thread nD τ) (ms0_2 t) fullShare ((dats m 0 c).after 2 t) from by
        unfold Dat.leavesExact; rw [liveAt0_2 t hL], after0_2]
      rw [aN_next m c t h0, aD_next m c t h0]
      iintro ⟨⟨⟨HS0, HS1⟩, Hg⟩, Ho, ⟨%d0, H0⟩, ⟨%d1, H1⟩, ⟨%d2, H2⟩⟩
      iapply (runLast c (grid0.coords t) _ _ _ _ _ _ _ _ _ _ hF hL (iblk m c 0 t) (iblk m c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexact H2
    · have hL : ¬condLast (grid0.coords t) := fun h => h7 ((hcondLast t).mp h)
      rw [Dat.leavesExact_idle (dats m 0 c) 2 t (idleAt0_2 t hL) (noFlush0_2 t hL)]
      iintro ⟨⟨⟨HS0, HS1⟩, Hg⟩, Ho, ⟨%d0, H0⟩, ⟨%d1, H1⟩, ⟨%d2, H2⟩⟩
      iapply (runMid c (grid0.coords t) _ _ _ _ _ _ _ _ _ _ hF hL (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run -/

set_option backward.isDefEq.respectTransparency.types false in
/-- Every weakly fair execution of @main terminates; every array the region stages ends at what the proof data
    computes, every other unscoped buffer at what the later host operations leave from the region's exit. -/
theorem run_main : θ_run defs (onTc (τ := τ) (main (F := F))) (s₀ m ρ) (Pipeline.FramePost cfgs (dats m) 0 (Pipeline.afterTail₀ cfgs (dats m) 0 (V0 m) (tail (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

end Cert.KernelIdeal.Frame

end
-- ==== Proof.TailValues.lean ====
/- The values the host operations after the region leave, read off the operation lists.

   After the region the program applies ninety-seven element-wise, broadcasting, gathering and reducing
   operations to the argument arrays (the region's own result is only reshaped).  Two of the results are
   the push and the pull loss; each is a fixed composition of those operations applied to the first and
   the third argument.  The compositions are named once, `push` and `pull`, as functions of the two
   argument arrays, and are never opened afterwards: both programs are shown to compute exactly these
   two functions of their arguments, so the results agree as soon as the arguments do. -/
import proofs.«174953_j30580167147966_1_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The ten stretches of host operations that follow the region, as one line. -/
abbrev tailOps : List (HloOp τ sig (Elt F)) :=
  List.flatten [Gen.hostOps1, Gen.hostOps1_1, Gen.hostOps1_2, Gen.hostOps1_3, Gen.hostOps1_4, Gen.hostOps1_5, Gen.hostOps1_6, Gen.hostOps1_7, Gen.hostOps1_8, Gen.hostOps1_9]

set_option maxRecDepth 8192 in
/-- The push loss as a function of the predicted maps `a0` and the keypoint table `a2`: per image, with
    `n` the number of people that have a visible joint and `t` their mean tags,
    `(Σ_{p,q valid} exp (-(t p - t q)²) - n) / (n (n - 1)) / 2` when `n ≥ 2` (the divisor replaced by one
    when it is not positive), and zero otherwise. -/
def push (a0 : (⟨S48x34x128x128, .f32⟩ : BufTy).Contents (Elt F)) (a2 : (⟨S48x30x17x2, .i32⟩ : BufTy).Contents (Elt F)) :
    (⟨S48, .f32⟩ : BufTy).Contents (Elt F) :=
  select (cmpf (F := F) .oge (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_)) (broadcastInDim S48 ![] bcast_S_S48 (constant (F := F) S_ .f32 0x40000000#32))) (mulf (F := F) (Host.divf (F := F) (subf (F := F) (Host.reduceAdd (F := F) (select (andi (broadcastInDim S48x30x30 ![0, 1, 2] bcast_S48x30x1_S48x30x30_0_1_2 (broadcastInDim S48x30x1 ![0, 1] bcast_S48x30_S48x30x1_0_1 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))))) (broadcastInDim S48x30x30 ![0, 1, 2] bcast_S48x1x30_S48x30x30_0_1_2 (broadcastInDim S48x1x30 ![0, 2] bcast_S48x30_S48x1x30_0_2 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32)))))) (Host.exp (F := F) (Host.negf (F := F) (mulf (F := F) (subf (F := F) (broadcastInDim S48x30x30 ![0, 1, 2] bcast_S48x30x1_S48x30x30_0_1_2 (broadcastInDim S48x30x1 ![0, 1] bcast_S48x30_S48x30x1_0_1 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32))))))) (broadcastInDim S48x30x30 ![0, 1, 2] bcast_S48x1x30_S48x30x30_0_1_2 (broadcastInDim S48x1x30 ![0, 2] bcast_S48x30_S48x1x30_0_2 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32)))))))) (subf (F := F) (broadcastInDim S48x30x30 ![0, 1, 2] bcast_S48x30x1_S48x30x30_0_1_2 (broadcastInDim S48x30x1 ![0, 1] bcast_S48x30_S48x30x1_0_1 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32))))))) (broadcastInDim S48x30x30 ![0, 1, 2] bcast_S48x1x30_S48x30x30_0_1_2 (broadcastInDim S48x1x30 ![0, 2] bcast_S48x30_S48x1x30_0_2 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32))))))))))) (broadcastInDim S48x30x30 ![] bcast_S_S48x30x30 (id (constant (F := F) S_ .f32 0x00000000#32)))) (constant (F := F) S_ .f32 0x00000000#32) reducesTo_S48x30x30_S48_d1_2 h_S_) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_))) (select (cmpf (F := F) .ogt (mulf (F := F) (subf (F := F) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_)) (broadcastInDim S48 ![] bcast_S_S48 (constant (F := F) S_ .f32 0x3F800000#32))) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_))) (broadcastInDim S48 ![] bcast_S_S48 (constant (F := F) S_ .f32 0x00000000#32))) (mulf (F := F) (subf (F := F) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_)) (broadcastInDim S48 ![] bcast_S_S48 (constant (F := F) S_ .f32 0x3F800000#32))) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_))) (broadcastInDim S48 ![] bcast_S_S48 (id (constant (F := F) S_ .f32 0x3F800000#32))))) (broadcastInDim S48 ![] bcast_S_S48 (constant (F := F) S_ .f32 0x3F000000#32))) (broadcastInDim S48 ![] bcast_S_S48 (id (constant (F := F) S_ .f32 0x00000000#32)))

set_option maxRecDepth 8192 in
/-- The pull loss as a function of the predicted maps `a0` and the keypoint table `a2`: per image, the sum
    over the people that have a visible joint of the mean squared distance of their visible joints' tags to
    their mean tag, divided by the number of such people (at least one). -/
def pull (a0 : (⟨S48x34x128x128, .f32⟩ : BufTy).Contents (Elt F)) (a2 : (⟨S48x30x17x2, .i32⟩ : BufTy).Contents (Elt F)) :
    (⟨S48, .f32⟩ : BufTy).Contents (Elt F) :=
  Host.divf (F := F) (Host.reduceAdd (F := F) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.divf (F := F) (Host.reduceAdd (F := F) (mulf (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (mulf (F := F) (subf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (broadcastInDim S48x30x17 ![0, 1, 2] bcast_S48x30x1_S48x30x17_0_1_2 (broadcastInDim S48x30x1 ![0, 1] bcast_S48x30_S48x30x1_0_1 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32)))))))) (subf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (broadcastInDim S48x30x17 ![0, 1, 2] bcast_S48x30x1_S48x30x17_0_1_2 (broadcastInDim S48x30x1 ![0, 1] bcast_S48x30_S48x30x1_0_1 (Host.divf (F := F) (Host.reduceAdd (F := F) (mulf (F := F) (Host.gather gather_S48x278528_S48x30x17x1_S48x30x17_n_1_0_0_1_3_11 (shapeCast _ (extractStridedSlice S48x17x128x128 ![0, 17, 0, 0] a0 slices_S48x34x128x128_S48x17x128x128_0_17_0_0) shapeCasts_S48x17x128x128_S48x278528) (broadcastInDim S48x30x17x1 ![0, 1, 2] bcast_S48x30x17_S48x30x17x1_0_1_2 (select (cmpi .slt (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 0#32))) (addi (shapeCast _ (extractStridedSlice S48x30x17x1 ![0, 0, 0, 0] a2 slices_S48x30x17x2_S48x30x17x1_0_0_0_0) shapeCasts_S48x30x17x1_S48x30x17) (broadcastInDim S48x30x17 ![] bcast_S_S48x30x17 (constantI S_ 32 278528#32))) (shapeCast _ (extractStridedSlice S48x30x17x1 ![0, 0, 0, 0] a2 slices_S48x30x17x2_S48x30x17x1_0_0_0_0) shapeCasts_S48x30x17x1_S48x30x17)))) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32)))))))))) (constant (F := F) S_ .f32 0x00000000#32) reducesTo_S48x30x17_S48x30_d2 h_S_) (select (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (id (constant (F := F) S_ .f32 0x3F800000#32))))) (broadcastInDim S48x30 ![] bcast_S_S48x30 (id (constant (F := F) S_ .f32 0x00000000#32)))) (constant (F := F) S_ .f32 0x00000000#32) reducesTo_S48x30_S48_d1 h_S_) (maximumf (F := F) (sitofp (F := F) .f32 (Host.reduce IntOp.addi (extui 32 (cmpf (F := F) .ogt (Host.reduceAdd (F := F) (uitofp (F := F) .f32 (cmpi .sgt (shapeCast _ (extractStridedSlice S48x30x17x1 ![0, 0, 0, 1] a2 slices_S48x30x17x2_S48x30x17x1_0_0_0_1) shapeCasts_S48x30x17x1_S48x30x17) (broadcastInDim S48x30x17 ![] bcast_S_S48x30x17 (constantI S_ 32 0#32)))) (constant (F := F) S_ .f32 0x00000000#32) reducesTo_S48x30x17_S48x30_d2 h_S_) (broadcastInDim S48x30 ![] bcast_S_S48x30 (constant (F := F) S_ .f32 0x00000000#32))) natLt_1_32) (constantI S_ 32 0#32) reducesTo_S48x30_S48_d1 h_S_)) (broadcastInDim S48 ![] bcast_S_S48 (constant (F := F) S_ .f32 0x3F800000#32)))

set_option maxRecDepth 16384 in
set_option maxHeartbeats 40000000 in
/-- The first result is the region's one-by-one result read as a scalar: only the first operation writes it. -/
theorem tail_v1 (W : Valuation τ sig (Elt F)) :
    StableHlo.after tailOps W (Proc.devRef .tc main_v1)
      = shapeCast S_ (W (Proc.devRef .tc main_v0)) shapeCasts_S1x1_S_ := by
  simp only [tailOps, Gen.hostOps1, Gen.hostOps1_1, Gen.hostOps1_2, Gen.hostOps1_3, Gen.hostOps1_4, Gen.hostOps1_5, Gen.hostOps1_6, Gen.hostOps1_7, Gen.hostOps1_8, Gen.hostOps1_9, List.flatten_cons, List.flatten_nil, List.append_nil, List.cons_append, List.nil_append]
  after_results_simp
  rfl

set_option maxRecDepth 16384 in
set_option maxHeartbeats 40000000 in
/-- The push result is `push` of the first and third arguments as the operations find them. -/
theorem tail_v67 (W : Valuation τ sig (Elt F)) :
    StableHlo.after tailOps W (Proc.devRef .tc main_v67)
      = push (W (Proc.devRef .tc main_arg0)) (W (Proc.devRef .tc main_arg2)) := by
  simp only [tailOps, Gen.hostOps1, Gen.hostOps1_1, Gen.hostOps1_2, Gen.hostOps1_3, Gen.hostOps1_4, Gen.hostOps1_5, Gen.hostOps1_6, Gen.hostOps1_7, Gen.hostOps1_8, Gen.hostOps1_9, List.flatten_cons, List.flatten_nil, List.append_nil, List.cons_append, List.nil_append]
  after_results_simp
  unfold push
  rfl

set_option maxRecDepth 16384 in
set_option maxHeartbeats 40000000 in
/-- The pull result is `pull` of the first and third arguments as the operations find them. -/
theorem tail_v39 (W : Valuation τ sig (Elt F)) :
    StableHlo.after tailOps W (Proc.devRef .tc main_v39)
      = pull (W (Proc.devRef .tc main_arg0)) (W (Proc.devRef .tc main_arg2)) := by
  simp only [tailOps, Gen.hostOps1, Gen.hostOps1_1, Gen.hostOps1_2, Gen.hostOps1_3, Gen.hostOps1_4, Gen.hostOps1_5, Gen.hostOps1_6, Gen.hostOps1_7, Gen.hostOps1_8, Gen.hostOps1_9, List.flatten_cons, List.flatten_nil, List.append_nil, List.cons_append, List.nil_append]
  after_results_simp
  unfold pull
  rfl

end Cert.KernelIdeal.Tail

end
-- ==== Proof.KIPost.lean ====
/-
  What the run leaves, read off its post. The two argument arrays the region stages end as they began (inputs are
  never written back); the third argument bypasses the region and no later operation writes it; the region's [1,1]
  result array is written back once, at the last point, where its one block is the whole array, so it ends holding
  the quotient of the two final running sums; and each of the three results of @main is the later host
  operations' value at the region-exit contents: the scalar loss the reshape of that quotient, the other two the
  shared pull and push chains of the first and third arguments.
-/
import proofs.«174953_j30580167147966_1_alg».proof.Proof.KIData
import proofs.«174953_j30580167147966_1_alg».proof.Proof.TailValues

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the region's exit leaves on core `c`: the staged arrays at what the proof data computes, everything
    else as the region found it. -/
abbrev Wexit (c : Dev nD) : Valuation τ sig (Elt F) :=
  Pipeline.withArrays spec0 c (V0 m c) fun w => (dats m 0 c).arrAt w cfg0.N

theorem Wexit_arg0 (c : Dev nD) : Wexit m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem Wexit_arg1 (c : Dev nD) : Wexit m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
theorem Wexit_arg2 (c : Dev nD) : Wexit m c (Proc.devRef .tc main_arg2) = m ((c : Thread nD τ).loc main_arg2) :=
  Pipeline.withArrays_of_ne spec0 c _ _ main_arg2 (by intro w; fin_cases w <;> decide)
theorem Wexit_v0 (c : Dev nD) : Wexit m c (Proc.devRef .tc main_v0) = (dats m 0 c).arrAt 2 cfg0.N :=
  Pipeline.withArrays_arr spec0 launch0.win.arr_inj c _ _ 2

/-! ## The result array after the run -/

/-- The result window's one block sits at the origin at every point. -/
theorem idx_out : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The quotient of the two final running sums. -/
def quot (c : Dev nD) : S1x1.Idx → Elt F .f32 := k0_pay2 (aD m c 7) (aN m c 7)

/-- What the last point writes back is the quotient, read through the block (which is the whole array). -/
theorem flushed_eq (c : Dev nD) (t : Fin cfg0.N) (hf : (cfg0.win 2).flush t = true) :
    (dats m 0 c).flushed 2 t = ((cfg0.win 2).blk t).view.read (Elt F) (quot m c) := by
  show (cfg0.win 2).cut (grid0.coords t) ((dats m 0 c).after 2 t) = _
  rw [after0_2]
  have hN : t.val < 8 := lt_of_lt_of_eq t.isLt N_0
  have h7 : t.val = 7 := by have := (flush0_2 t).mp hf; omega
  rw [h7]
  obtain ⟨e0, e1⟩ := idx_out t
  funext j
  show k0_pay2 (aD m c 7) (aN m c 7) j = k0_pay2 (aD m c 7) (aN m c 7) (((cfg0.win 2).blk t).view.emb j)
  refine congrArg (k0_pay2 (aD m c 7) (aN m c 7)) ?_
  funext a; apply Fin.ext
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- An index of the result array lies in a point's block iff each coordinate is in the block's range. -/
theorem mem_blk_out (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The last point's block covers the whole result array. -/
theorem cover_out (i : S1x1.Idx) : ∃ t : Fin cfg0.N, (cfg0.win 2).flush t = true ∧ i ∈ ((cfg0.win 2).blk t).view.set := by
  refine ⟨t0_7, (flush0_2 t0_7).mpr rfl, ?_⟩
  rw [mem_blk_out]
  obtain ⟨e0, e1⟩ := idx_out t0_7
  intro a
  match a with
  | ⟨0, _⟩ => show win0_2.index t0_7 (0 : Fin 2) * 1 ≤ (i 0).val ∧ (i 0).val < win0_2.index t0_7 (0 : Fin 2) * 1 + 1; have hi : (i 0).val < 1 := (i 0).isLt; omega
  | ⟨1, _⟩ => show win0_2.index t0_7 (1 : Fin 2) * 1 ≤ (i 1).val ∧ (i 1).val < win0_2.index t0_7 (1 : Fin 2) * 1 + 1; have hi : (i 1).val < 1 := (i 1).isLt; omega

/-- The result array after the run is the quotient of the two final running sums. -/
theorem final_out (c : Dev nD) : (dats m 0 c).arrAt 2 cfg0.N = quot m c :=
  (dats m 0 c).arrAt_eq_of_cover 2 (quot m c) (fun t hf => flushed_eq m c t hf) cover_out

/-! ## The frame -/

theorem mem_rest_arg2 : main_arg2 ∈ Pipeline.restRefs sig spec0 :=
  Pipeline.mem_restRefs_of main_arg2 rfl (by intro w; fin_cases w <;> decide)

/-- What the run's post says of a buffer that bypasses the region: the later operations' fold from the region's exit. -/
theorem post_rest (r : PUnit × MemSt nD τ sig (Elt F))
    (h : Pipeline.FramePost cfgs (dats m) 0 (Pipeline.afterTail₀ cfgs (dats m) 0 (V0 m) (tail (F := F))) r) (c : Dev nD)
    (b : Ref sig .tc) (hb : b ∈ Pipeline.restRefs sig spec0) :
    r.2.mem ((c.tc : Thread nD τ).loc b) = StableHlo.after (tail (F := F)).flatten (Wexit m c) (Proc.devRef .tc b) :=
  (h c).2 b hb

theorem kept_arg0 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_arg1 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_arg2 (r : PUnit × MemSt nD τ sig (Elt F))
    (h : Pipeline.FramePost cfgs (dats m) 0 (Pipeline.afterTail₀ cfgs (dats m) 0 (V0 m) (tail (F := F))) r) (c : Dev nD) :
    r.2.mem ((c.tc : Thread nD τ).loc main_arg2) = m ((c.tc : Thread nD τ).loc main_arg2) :=
  (post_rest m r h c main_arg2 mem_rest_arg2).trans
    ((tail_kept (Wexit m c) main_arg2 (Or.inr (Or.inr (Or.inr rfl)))).trans (Wexit_arg2 m c))

/-- THE FRAME: every weakly fair execution terminates, nothing faults, the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

/-! ## The three results -/

theorem mem_rest_v1 : main_v1 ∈ Pipeline.restRefs sig spec0 :=
  Pipeline.mem_restRefs_of main_v1 rfl (by intro w; fin_cases w <;> decide)
theorem mem_rest_v67 : main_v67 ∈ Pipeline.restRefs sig spec0 :=
  Pipeline.mem_restRefs_of main_v67 rfl (by intro w; fin_cases w <;> decide)
theorem mem_rest_v39 : main_v39 ∈ Pipeline.restRefs sig spec0 :=
  Pipeline.mem_restRefs_of main_v39 rfl (by intro w; fin_cases w <;> decide)

/-- The run with each result named: the scalar loss is the reshape of the quotient of the two final running sums, the
    other two are the shared chains of the first and third arguments; the arguments end unchanged. -/
theorem run_values : θ_run defs (onTc (τ := τ) (main (F := F))) ⟨m, fun _ => 0, ρ⟩ (fun r => ∀ c : Dev nD,
      r.2.mem ((c.tc : Thread nD τ).loc main_v1) = shapeCast S_ (quot m c) shapeCasts_S1x1_S_
      ∧ r.2.mem ((c.tc : Thread nD τ).loc main_v67) = Cert.KernelIdeal.Tail.push (m ((c.tc : Thread nD τ).loc main_arg0)) (m ((c.tc : Thread nD τ).loc main_arg2))
      ∧ r.2.mem ((c.tc : Thread nD τ).loc main_v39) = Cert.KernelIdeal.Tail.pull (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      (post_rest m r h c main_v1 mem_rest_v1).trans ((Cert.KernelIdeal.Tail.tail_v1 (Wexit m c)).trans (by rw [Wexit_v0, final_out])),
      (post_rest m r h c main_v67 mem_rest_v67).trans ((Cert.KernelIdeal.Tail.tail_v67 (Wexit m c)).trans (by rw [Wexit_arg0, Wexit_arg2])),
      (post_rest m r h c main_v39 mem_rest_v39).trans ((Cert.KernelIdeal.Tail.tail_v39 (Wexit m c)).trans (by rw [Wexit_arg0, Wexit_arg2])),
      kept_arg0 m r h c, kept_arg1 m r h c, kept_arg2 m r h c⟩) (run_main m ρ)

end Cert.KernelIdeal.Frame

end
-- ==== Proof.RefValues.lean ====
/- The reference's push and pull results, read off its operation list.

   The reference computes its second and third results by the same element-wise, broadcasting, gathering and
   reducing operations, in the same order, as the program under test applies after its region.  Folding the
   reference's operations from any contents `W'` therefore gives the very functions `push` and `pull`
   (named once, beside the other program's operations) of the first and third arguments as `W'` holds them. -/
import proofs.«174953_j30580167147966_1_alg».proof.Proof.TailValues
import proofs.«174953_j30580167147966_1_alg».proof.Proof.RefRun

noncomputable section

namespace Cert.ReferenceIdeal.RefValues

open Cert.ReferenceIdeal Idealize.ShloMosaic Idealize.ShloMosaic.TcCoe Idealize.SL.Sem Idealize.ShloMosaic.StableHlo

variable {F : FTy → Type} [FloatOps F]

set_option maxRecDepth 16384 in
set_option maxHeartbeats 40000000 in
/-- The reference's push result is `push` of its first and third arguments. -/
theorem ref_v79 (W' : Valuation τ sig (Elt F)) :
    StableHlo.after (RefRun.ops (F := F)) W' (Proc.devRef .tc main_v79)
      = Cert.KernelIdeal.Tail.push (W' (Proc.devRef .tc main_arg0)) (W' (Proc.devRef .tc main_arg2)) := by
  simp only [RefRun.ops]
  after_results_simp
  unfold Cert.KernelIdeal.Tail.push
  rfl

set_option maxRecDepth 16384 in
set_option maxHeartbeats 40000000 in
/-- The reference's pull result is `pull` of its first and third arguments. -/
theorem ref_v51 (W' : Valuation τ sig (Elt F)) :
    StableHlo.after (RefRun.ops (F := F)) W' (Proc.devRef .tc main_v51)
      = Cert.KernelIdeal.Tail.pull (W' (Proc.devRef .tc main_arg0)) (W' (Proc.devRef .tc main_arg2)) := by
  simp only [RefRun.ops]
  after_results_simp
  unfold Cert.KernelIdeal.Tail.pull
  rfl

end Cert.ReferenceIdeal.RefValues

end
-- ==== Proof.RefValues2.lean ====
/- The reference's first result and its untouched arguments, read off its operation list.

   The first result is the masked mean of the per-map mean squared differences: with `d` the difference of the
   first seventeen predicted maps of every image and the target maps, `per = (Σ_{h,w} d²) / 16384` per image and
   map, and `mask = [Σ_{h,w} target > 0]`, it is `(Σ per · mask) / (Σ mask)`.  It is named once, `refHm`, as a
   function of the two arrays.  No operation writes an argument array, so the fold leaves the arguments as found. -/
import proofs.«174953_j30580167147966_1_alg».proof.Proof.RefRun

noncomputable section

namespace Cert.ReferenceIdeal.RefValues

open Cert.ReferenceIdeal Cert.ReferenceIdeal.Gen Idealize.ShloMosaic Idealize.ShloMosaic.TcCoe Idealize.SL.Sem Idealize.ShloMosaic.StableHlo

variable {F : FTy → Type} [FloatOps F]

/-- The masked mean squared error of the predicted maps `X0` (their first seventeen channels) against the
    targets `X1`: `(Σ_{b,j} (Σ_{h,w} (X0 - X1)²) / 16384 · [Σ_{h,w} X1 > 0]) / (Σ_{b,j} [Σ_{h,w} X1 > 0])`. -/
def refHm (X0 : (⟨S48x34x128x128, .f32⟩ : BufTy).Contents (Elt F)) (X1 : (⟨S48x17x128x128, .f32⟩ : BufTy).Contents (Elt F)) :
    (⟨S_, .f32⟩ : BufTy).Contents (Elt F) :=
  Host.divf (F := F) (Host.reduceAdd (F := F) (mulf (F := F) (Host.divf (F := F) (Host.reduceAdd (F := F) (mulf (F := F) (subf (F := F) (extractStridedSlice S48x17x128x128 ![0, 0, 0, 0] X0 slices_S48x34x128x128_S48x17x128x128_0_0_0_0) X1) (subf (F := F) (extractStridedSlice S48x17x128x128 ![0, 0, 0, 0] X0 slices_S48x34x128x128_S48x17x128x128_0_0_0_0) X1)) (constant (F := F) S_ .f32 0x00000000#32) reducesTo_S48x17x128x128_S48x17_d2_3 h_S_) (broadcastInDim S48x17 ![] bcast_S_S48x17 (constant (F := F) S_ .f32 0x46800000#32))) (uitofp (F := F) .f32 (cmpf (F := F) .ogt (Host.reduceAdd (F := F) X1 (constant (F := F) S_ .f32 0x00000000#32) reducesTo_S48x17x128x128_S48x17_d2_3 h_S_) (broadcastInDim S48x17 ![] bcast_S_S48x17 (constant (F := F) S_ .f32 0x00000000#32))))) (constant (F := F) S_ .f32 0x00000000#32) reducesTo_S48x17_S_d0_1 h_S_) (Host.reduceAdd (F := F) (uitofp (F := F) .f32 (cmpf (F := F) .ogt (Host.reduceAdd (F := F) X1 (constant (F := F) S_ .f32 0x00000000#32) reducesTo_S48x17x128x128_S48x17_d2_3 h_S_) (broadcastInDim S48x17 ![] bcast_S_S48x17 (constant (F := F) S_ .f32 0x00000000#32)))) (constant (F := F) S_ .f32 0x00000000#32) reducesTo_S48x17_S_d0_1 h_S_)

set_option maxRecDepth 16384 in
set_option maxHeartbeats 40000000 in
/-- The reference's first result is `refHm` of its first two arguments. -/
theorem ref_v15 (W' : Valuation τ sig (Elt F)) :
    StableHlo.after (RefRun.ops (F := F)) W' (Proc.devRef .tc main_v15)
      = refHm (W' (Proc.devRef .tc main_arg0)) (W' (Proc.devRef .tc main_arg1)) := by
  simp only [RefRun.ops]
  after_results_simp
  unfold refHm
  rfl

set_option maxRecDepth 16384 in
set_option maxHeartbeats 40000000 in
/-- No operation writes the first argument. -/
theorem ref_arg0 (W' : Valuation τ sig (Elt F)) :
    StableHlo.after (RefRun.ops (F := F)) W' (Proc.devRef .tc main_arg0) = W' (Proc.devRef .tc main_arg0) := by
  simp only [RefRun.ops]
  after_results_simp

set_option maxRecDepth 16384 in
set_option maxHeartbeats 40000000 in
/-- No operation writes the second argument. -/
theorem ref_arg1 (W' : Valuation τ sig (Elt F)) :
    StableHlo.after (RefRun.ops (F := F)) W' (Proc.devRef .tc main_arg1) = W' (Proc.devRef .tc main_arg1) := by
  simp only [RefRun.ops]
  after_results_simp

set_option maxRecDepth 16384 in
set_option maxHeartbeats 40000000 in
/-- No operation writes the third argument. -/
theorem ref_arg2 (W' : Valuation τ sig (Elt F)) :
    StableHlo.after (RefRun.ops (F := F)) W' (Proc.devRef .tc main_arg2) = W' (Proc.devRef .tc main_arg2) := by
  simp only [RefRun.ops]
  after_results_simp

/-- The three argument arrays end as they were found. -/
theorem ref_kept (W' : Valuation τ sig (Elt F)) (b : Ref sig .tc) (hb : b = main_arg0 ∨ b = main_arg1 ∨ b = main_arg2) :
    StableHlo.after (RefRun.ops (F := F)) W' (Proc.devRef .tc b) = W' (Proc.devRef .tc b) := by
  rcases hb with rfl | rfl | rfl
  · exact ref_arg0 W'
  · exact ref_arg1 W'
  · exact ref_arg2 W'

end Cert.ReferenceIdeal.RefValues

end
-- ==== Proof.RefPost.lean ====
/- The reference's run, with its results named.

   The reference is a straight line of host operations, so every weakly fair execution terminates with each
   buffer at the fold of the operations over the launch contents.  Reading the three result buffers and the
   three argument buffers off that fold gives the run's post: the first result is the masked mean squared
   error `refHm` of the first two arguments, the second and third are `push` and `pull` of the first and
   third arguments, and the arguments end as they began. -/
import proofs.«174953_j30580167147966_1_alg».proof.Proof.RefRun
import proofs.«174953_j30580167147966_1_alg».proof.Proof.RefValues
import proofs.«174953_j30580167147966_1_alg».proof.Proof.RefValues2

noncomputable section

namespace Cert.ReferenceIdeal.RefPost

open Cert.ReferenceIdeal Idealize.ShloMosaic Idealize.ShloMosaic.TcCoe Idealize.SL.Sem Idealize.ShloMosaic.StableHlo

variable {F : FTy → Type} [FloatOps F]

/-- Every weakly fair execution of the reference terminates with its three results at `refHm`, `push` and
    `pull` of its arguments, and the arguments unchanged. -/
theorem run_values (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_v15) = RefValues.refHm (m' ((c.tc : Thread nD τ).loc main_arg0)) (m' ((c.tc : Thread nD τ).loc main_arg1))
      ∧ r.2.mem ((c.tc : Thread nD τ).loc main_v79) = Cert.KernelIdeal.Tail.push (m' ((c.tc : Thread nD τ).loc main_arg0)) (m' ((c.tc : Thread nD τ).loc main_arg2))
      ∧ r.2.mem ((c.tc : Thread nD τ).loc main_v51) = Cert.KernelIdeal.Tail.pull (m' ((c.tc : Thread nD τ).loc main_arg0)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun _ h c =>
    ⟨(h c main_v15).trans (RefValues.ref_v15 (launchContents m' c)),
     (h c main_v79).trans (RefValues.ref_v79 (launchContents m' c)),
     (h c main_v51).trans (RefValues.ref_v51 (launchContents m' c)),
     (h c main_arg0).trans (RefValues.ref_arg0 (launchContents m' c)),
     (h c main_arg1).trans (RefValues.ref_arg1 (launchContents m' c)),
     (h c main_arg2).trans (RefValues.ref_arg2 (launchContents m' c))⟩)
    (RefRun.run_after m' ρ')

/-- Every weakly fair execution of the reference terminates with its arguments unchanged. -/
theorem frame (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun _ h c => (h c).2.2.2) (run_values m' ρ')

end Cert.ReferenceIdeal.RefPost

end
-- ==== Proof.KIBlocks.lean ====
/- The input windows' blocks, read at an index.

   Each of the two input windows cuts its array into eight blocks of six images: at grid point `t` the block
   holds images `6 t … 6 t + 5` (all of the first seventeen channels, rows and columns), so the block's entry
   at `y` is the array's entry at `(6 t + y₀, y₁, y₂, y₃)`. -/
import proofs.«174953_j30580167147966_1_alg».proof.Proof.KIFrameKit

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The two input windows' block indices over the grid: the point's number on the image axis, zero on the
    channel, row and column axes. -/
theorem idx_facts_in : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- The first window's block at point `t` is the predicted maps read at images `6 t … 6 t + 5`. -/
theorem iblk0_read (c : Dev nD) (t : Fin cfg0.N) (y : S6x17x128x128.Idx) (i : S48x34x128x128.Idx)
    (h0 : (i 0).val = 6 * t.val + (y 0).val) (h1 : (i 1).val = (y 1).val) (h2 : (i 2).val = (y 2).val) (h3 : (i 3).val = (y 3).val) :
    iblk m c 0 t y = V m c main_arg0 i := by
  obtain ⟨e0, e1, e2, e3, -⟩ := idx_facts_in t
  show V m c main_arg0 (((cfg0.win 0).blk t).view.emb y) = V m c main_arg0 i
  refine congrArg (V m c main_arg0) ?_
  funext a; apply Fin.ext
  match a with
  | ⟨0, _⟩ => show win0_0.index t (0 : Fin 4) * 6 + 1 * (y 0).val = (i 0).val; omega
  | ⟨1, _⟩ => show win0_0.index t (1 : Fin 4) * 17 + 1 * (y 1).val = (i 1).val; omega
  | ⟨2, _⟩ => show win0_0.index t (2 : Fin 4) * 128 + 1 * (y 2).val = (i 2).val; omega
  | ⟨3, _⟩ => show win0_0.index t (3 : Fin 4) * 128 + 1 * (y 3).val = (i 3).val; omega

/-- The second window's block at point `t` is the target maps read at images `6 t … 6 t + 5`. -/
theorem iblk1_read (c : Dev nD) (t : Fin cfg0.N) (y : S6x17x128x128.Idx) (i : S48x17x128x128.Idx)
    (h0 : (i 0).val = 6 * t.val + (y 0).val) (h1 : (i 1).val = (y 1).val) (h2 : (i 2).val = (y 2).val) (h3 : (i 3).val = (y 3).val) :
    iblk m c 1 t y = V m c main_arg1 i := by
  obtain ⟨-, -, -, -, e0, e1, e2, e3⟩ := idx_facts_in t
  show V m c main_arg1 (((cfg0.win 1).blk t).view.emb y) = V m c main_arg1 i
  refine congrArg (V m c main_arg1) ?_
  funext a; apply Fin.ext
  match a with
  | ⟨0, _⟩ => show win0_1.index t (0 : Fin 4) * 6 + 1 * (y 0).val = (i 0).val; omega
  | ⟨1, _⟩ => show win0_1.index t (1 : Fin 4) * 17 + 1 * (y 1).val = (i 1).val; omega
  | ⟨2, _⟩ => show win0_1.index t (2 : Fin 4) * 128 + 1 * (y 2).val = (i 2).val; omega
  | ⟨3, _⟩ => show win0_1.index t (3 : Fin 4) * 128 + 1 * (y 3).val = (i 3).val; omega

end Cert.KernelIdeal.Frame

end
-- ==== Proof.HmValue.lean ====
/-
  The heatmap loss at the ideal values: the kernel's quotient of its two accumulators after the eighth grid point
  equals the reference's quotient of its two sums.

  Per channel `(b, j)` write `s(b, j)` for the sum over the 128 × 128 lanes of the squared difference between
  prediction and target, and `m(b, j)` for the mask, one where the target's lane sum is positive and zero elsewhere.
  The reference computes `(∑ s(b, j) / 2¹⁴ · m(b, j)) / (∑ m(b, j))` over the 48 × 17 channels. The kernel walks the 48
  rows in eight blocks of six, adding to one accumulator the block's `∑ s · 2⁻¹⁴ · m` and to the other the block's
  `∑ m`, both from zero, and at the end divides the first by the second, the second replaced by one when it is not
  positive. Dividing by 2¹⁴ is multiplying by 2⁻¹⁴ for every extended real, sums of extended reals may be regrouped
  freely, and a sum over 48 rows is the sum over eight blocks of the sums over their six rows; so the two numerators
  agree and the two counts agree, with no finiteness assumption. Under the precondition's conjunct that the
  reference's count is positive the kernel's guard keeps the count, and the two quotients are the same quotient.
-/
import proofs.«174953_j30580167147966_1_alg».proof.Proof.Gen.KernelIdeal.Skeleton
import proofs.«174953_j30580167147966_1_alg».proof.Proof.Gen.ReferenceIdeal
import proofs.«174953_j30580167147966_1_alg».proof.Proof.Gen.Pre_finite_inputs
import proofs.«174953_j30580167147966_1_alg».proof.Proof.Acc
import Idealize.ShloMosaic.Lib.ValueIdx
import Idealize.ShloMosaic.Lib.KernelVsHost
import Idealize.ShloMosaic.Lib.Affine
import Idealize.ShloMosaic.Lib.Pipeline.Value
import Idealize.ShloMosaic.PureOps.Ideal.Laws

noncomputable section

open scoped BigOperators

namespace Cert.KernelIdeal.HmValue

open Idealize.ShloMosaic Idealize.ShloMosaic.ValueIdx Cert.KernelIdeal Cert.KernelIdeal.Gen

/-! ## Vocabulary -/

/-- The reference's result shape of its sum over the two lane axes. -/
abbrev S48x17 : Shape := ⟨2, ![48, 17]⟩

/-- The sum over the two lane axes of channel `(a, c)` of an array `[n0, n1, 128, 128]`. -/
def lanes {n0 n1 : ℕ} (x : (⟨4, ![n0, n1, 128, 128]⟩ : Shape).Idx → EReal) (a : Fin n0) (c : Fin n1) : EReal :=
  ∑ h : Fin 128, ∑ w : Fin 128, x (ix4 a c h w)

/-- The channel mask as an extended real: one where the channel's target mass is positive, else zero. -/
def msk (x : EReal) : EReal :=
  FloatOps.uitofp (F := Ideal) .f32 (FloatOps.cmpf (F := Ideal) (φ := .f32) .ogt x (0 : EReal))

/-- The word `0x46800000` is the real 16384 = 2¹⁴. -/
theorem word_16384 : Ideal.ofBits .f32 0x46800000#32 = ((16384 : ℝ) : EReal) := by
  simp [Ideal.ofBits, Ideal.ieee, -EReal.coe_mul]; norm_num

/-- The word `0x38800000` is the real 2⁻¹⁴. -/
theorem word_inv16384 : Ideal.ofBits .f32 0x38800000#32 = (((1 : ℝ) / 16384 : ℝ) : EReal) := by
  simp [Ideal.ofBits, Ideal.ieee, -EReal.coe_mul]; norm_num

/-- Dividing by 2¹⁴ is multiplying by 2⁻¹⁴, for every extended real. -/
theorem div_16384 (S : EReal) :
    Ideal.div S (Ideal.ofBits .f32 0x46800000#32) = S * Ideal.ofBits .f32 0x38800000#32 := by
  rw [word_16384, word_inv16384, Ideal.div_coe (by norm_num)]

/-- The comparison "greater than zero" is the bit one exactly at the positive extended reals. -/
theorem cmp_ogt_zero (x : EReal) : Ideal.cmp .ogt x 0 = 1#1 ↔ 0 < x := by
  have key : ∀ b : Bool, BitVec.ofBool b = 1#1 ↔ b = true := by intro b; cases b <;> decide
  show BitVec.ofBool (decide ((0 : EReal) < x)) = 1#1 ↔ 0 < x
  rw [key, decide_eq_true_eq]

/-! ## The kernel's reductions read at an index -/
theorem red23 (x : FVec Ideal S6x17x128x128 .f32) (acc : BitVec 32)
    (h3 : S6x17x128x128.Reduces [3] S6x17x128) (h2 : S6x17x128.Reduces [2] S6x17)
    (hφ : FKind.Formats .f32) (hacc : acc = FKind.add.neutral .f32 hφ) (a : Fin 6) (c : Fin 17) :
    multiReduction .add [2] S6x17 (multiReduction .add [3] S6x17x128 x acc h3 hφ hacc) acc h2 hφ hacc (ix2 a c)
      = ∑ h : Fin 128, ∑ w : Fin 128, x (ix4 a c h w) := by
  rw [Ideal.multiReduction_add_single]
  refine Finset.sum_congr rfl fun h _ => ?_
  rw [Ideal.multiReduction_add_single]
  refine Finset.sum_congr rfl fun w _ => ?_
  congr 1
  funext e
  match e with
  | ⟨0, _⟩ => exact Fin.ext rfl
  | ⟨1, _⟩ => exact Fin.ext rfl
  | ⟨2, _⟩ => exact Fin.ext rfl
  | ⟨3, _⟩ => exact Fin.ext rfl

/-- The four sums of one block collapse to the double sum over the block's rows and channels. -/
theorem red10 (x : FVec Ideal S6x17 .f32) (acc : BitVec 32)
    (h1 : S6x17.Reduces [1] S6) (c1 : S6.ShapeCasts S6x1) (h0 : S6x1.Reduces [0] S1) (c0 : S1.ShapeCasts S1x1)
    (hφ : FKind.Formats .f32) (hacc : acc = FKind.add.neutral .f32 hφ) (i : S1x1.Idx) :
    shapeCast S1x1 (multiReduction .add [0] S1 (shapeCast S6x1 (multiReduction .add [1] S6 x acc h1 hφ hacc) c1) acc h0 hφ hacc) c0 i
      = ∑ a : Fin 6, ∑ c : Fin 17, x (ix2 a c) := by
  rw [shapeCast_apply _ c0 i (ix1 (0 : Fin 1)) (by
    rw [Shape.rowMajor_val_one, Shape.rowMajor_val_two]
    have h0 : (i 0).val < 1 := (i 0).isLt
    have h1 : (i 1).val < 1 := (i 1).isLt
    show 0 = (i 0).val * 1 + (i 1).val
    omega)]
  rw [Ideal.multiReduction_add_single]
  refine Finset.sum_congr rfl fun a _ => ?_
  rw [shapeCast_apply _ c1 _ (ix1 a) (by
    rw [Shape.rowMajor_val_one, Shape.rowMajor_val_two]
    show a.val = a.val * 1 + 0
    omega)]
  rw [Ideal.multiReduction_add_single]
  refine Finset.sum_congr rfl fun c _ => ?_
  congr 1
  funext e
  match e with
  | ⟨0, _⟩ => exact Fin.ext rfl
  | ⟨1, _⟩ => exact Fin.ext rfl

/-- A block's count of channels with positive target mass. -/
def blkD (v4 : Vec Ideal S6x17x128x128 .f32) : EReal :=
  ∑ a : Fin 6, ∑ c : Fin 17, msk (lanes v4 a c)

/-- A block's sum of masked per-channel mean squared errors. -/
def blkN (v3 v4 : Vec Ideal S6x17x128x128 .f32) : EReal :=
  ∑ a : Fin 6, ∑ c : Fin 17,
    lanes (fun i => (v3 i - v4 i) * (v3 i - v4 i)) a c * Ideal.ofBits .f32 0x38800000#32 * msk (lanes v4 a c)

set_option backward.isDefEq.respectTransparency.types false in
/-- The kernel's mask of channel `(a, c)` of a block. -/
theorem pay5_apply (v4 : Vec Ideal S6x17x128x128 .f32) (a : Fin 6) (c : Fin 17) :
    k0_pay5 v4 (ix2 a c) = msk (lanes v4 a c) := by
  unfold k0_pay5
  try dsimp only
  rw [sitofp_extui_eq_uitofp]
  show FloatOps.uitofp (F := Ideal) .f32 (FloatOps.cmpf (F := Ideal) .ogt
    (multiReduction .add [2] S6x17 _ _ _ _ _ (ix2 a c)) (Ideal.ofBits .f32 0x00000000#32)) = _
  rw [red23, Ideal.ofBits_zero_f32]
  rfl

set_option backward.isDefEq.respectTransparency.types false in
theorem pay6_apply (v4 : Vec Ideal S6x17x128x128 .f32) (i : S1x1.Idx) : k0_pay6 v4 i = blkD v4 := by
  unfold k0_pay6
  try dsimp only
  rw [red10]
  exact Finset.sum_congr rfl fun a _ => Finset.sum_congr rfl fun c _ => pay5_apply v4 a c

set_option backward.isDefEq.respectTransparency.types false in
theorem pay7_apply (v3 v4 : Vec Ideal S6x17x128x128 .f32) (v26 : Vec Ideal S1x1 .f32) (i : S1x1.Idx) :
    k0_pay7 v3 v4 v26 i = v26 i + blkN v3 v4 := by
  unfold k0_pay7
  try dsimp only
  rw [shapeCast_apply _ _ i i rfl]
  show (v26 i : EReal) + shapeCast S1x1 _ _ i = _
  rw [red10]
  congr 1
  refine Finset.sum_congr rfl fun a _ => Finset.sum_congr rfl fun c _ => ?_
  show (multiReduction .add [2] S6x17 _ _ _ _ _ (ix2 a c)) * Ideal.ofBits .f32 0x38800000#32 * k0_pay5 v4 (ix2 a c) = _
  rw [red23, pay5_apply]
  rfl

theorem pay1_apply (v25 : FVec Ideal S1x1 .f32) (v31 : Vec Ideal S1x1 .f32) (i : S1x1.Idx) :
    k0_pay1 v25 v31 i = v31 i + v25 i := by
  unfold k0_pay1
  try dsimp only
  rw [shapeCast_apply _ _ i i rfl]
  rfl

theorem pay3_apply (i : S1x1.Idx) : k0_pay3 (F := Ideal) i = 0 := by
  unfold k0_pay3
  try dsimp only
  rw [shapeCast_apply _ _ i i rfl]
  exact Ideal.ofBits_zero_f32

theorem pay4_apply (i : S1x1.Idx) : k0_pay4 (F := Ideal) i = 0 := by
  unfold k0_pay4
  try dsimp only
  rw [shapeCast_apply _ _ i i rfl]
  exact Ideal.ofBits_zero_f32

/-! ## The accumulators are the running sums of the blocks' contributions -/

theorem accN_apply (b0 b1 : ℕ → Vec Ideal S6x17x128x128 .f32) (n : ℕ) (i : S1x1.Idx) :
    Acc.accN b0 b1 n i = ∑ t ∈ Finset.range (n + 1), blkN (b0 t) (b1 t) := by
  induction n with
  | zero => rw [Acc.accN_zero, pay7_apply, pay3_apply, zero_add, Finset.sum_range_one]
  | succ n ih => rw [Acc.accN_succ, pay7_apply, ih, Finset.sum_range_succ _ (n + 1)]

theorem accD_apply (b1 : ℕ → Vec Ideal S6x17x128x128 .f32) (n : ℕ) (i : S1x1.Idx) :
    Acc.accD b1 n i = ∑ t ∈ Finset.range (n + 1), blkD (b1 t) := by
  induction n with
  | zero => rw [Acc.accD_zero, pay1_apply, pay4_apply, pay6_apply, zero_add, Finset.sum_range_one]
  | succ n ih => rw [Acc.accD_succ, pay1_apply, ih, pay6_apply, Finset.sum_range_succ _ (n + 1)]

/-! ## The reference's reductions read at an index -/

/-- The intermediate shape of the reference's lane sum taken one axis at a time. -/
abbrev S48x17x128 : Shape := ⟨3, ![48, 17, 128]⟩

/-- The sum over the two lane axes at once is the double sum over the lanes. -/
theorem refRed23 (x : S48x17x128x128.Idx → EReal) (init : EReal) (hR : S48x17x128x128.ReducesTo [2, 3] S48x17)
    (a : Fin 48) (c : Fin 17) :
    Ideal.hostReduceAdd hR x init (ix2 a c) = init + lanes x a c := by
  have h3 : S48x17x128x128.Reduces [3] S48x17x128 := by decide
  have h2 : S48x17x128.Reduces [2] S48x17 := by decide
  unfold Ideal.hostReduceAdd lanes
  congr 1
  have hcomp : (∑ i ∈ Finset.univ.filter (fun i => hR.drop i = ix2 a c), x i)
      = Ideal.reduceAdd h2 (Ideal.reduceAdd h3 x) (ix2 a c) := by
    unfold Ideal.reduceAdd
    rw [Finset.sum_fiberwise_eq_sum_filter]
    refine Finset.sum_congr ?_ fun _ _ => rfl
    ext i
    simp only [Finset.mem_filter, Finset.mem_univ, true_and]
    have hd : hR.drop i = h2.drop (h3.drop i) := by
      funext b
      match b with
      | ⟨0, _⟩ => exact Fin.ext rfl
      | ⟨1, _⟩ => exact Fin.ext rfl
    rw [hd]
  rw [hcomp, Ideal.reduceAdd_single h2]
  refine Finset.sum_congr rfl fun h _ => ?_
  rw [Ideal.reduceAdd_single h3]
  refine Finset.sum_congr rfl fun w _ => ?_
  congr 1
  funext e
  match e with
  | ⟨0, _⟩ => exact Fin.ext rfl
  | ⟨1, _⟩ => exact Fin.ext rfl
  | ⟨2, _⟩ => exact Fin.ext rfl
  | ⟨3, _⟩ => exact Fin.ext rfl

/-- The sum over both remaining axes into a scalar is the double sum over rows and channels. -/
theorem refRed01 (x : S48x17.Idx → EReal) (init : EReal) (hT : S48x17.ReducesTo [0, 1] S_) (j : S_.Idx) :
    Ideal.hostReduceAdd hT x init j = init + ∑ a : Fin 48, ∑ c : Fin 17, x (ix2 a c) := by
  rw [Ideal.hostReduceAdd_total hT (fun b => b.elim0), sum_idx2]

/-- Forty-eight rows are eight blocks of six. -/
theorem sum_rows (f : Fin 48 → EReal) (g : ℕ → Fin 6 → EReal)
    (hfg : ∀ (t : ℕ) (ht : t < 8) (k : Fin 6), g t k = f ⟨6 * t + k.val, by have := k.isLt; omega⟩) :
    ∑ a : Fin 48, f a = ∑ t ∈ Finset.range 8, ∑ k : Fin 6, g t k := by
  rw [← Fin.sum_univ_eq_sum_range (fun t => ∑ k : Fin 6, g t k) 8]
  have e : ∑ a : Fin 48, f a = ∑ p : Fin 8 × Fin 6, f (finProdFinEquiv p) :=
    (Equiv.sum_comp (finProdFinEquiv (m := 8) (n := 6)) f).symm
  rw [e, Fintype.sum_prod_type]
  refine Finset.sum_congr rfl fun t _ => Finset.sum_congr rfl fun k _ => ?_
  rw [hfg t.val t.isLt k]
  congr 1
  apply Fin.ext
  show k.val + 6 * t.val = 6 * t.val + k.val
  omega

/-! ## The reference's loss -/

/-- The reference's first result, the heatmap loss, as a term over the two float arguments: the sum over rows and
    channels of (the channel's summed squared error divided by 2¹⁴) times the channel's mask, divided by the sum of
    the masks. -/
def refHm (X0 : FVec Ideal S48x34x128x128 .f32) (X1 : FVec Ideal S48x17x128x128 .f32) :
    FVec Ideal Cert.ReferenceIdeal.S_ .f32 :=
  Host.divf (Host.reduceAdd (mulf (Host.divf (Host.reduceAdd (mulf (subf (extractStridedSlice S48x17x128x128 ![0, 0, 0, 0] X0 Cert.ReferenceIdeal.Facts₀.slices_S48x34x128x128_S48x17x128x128_0_0_0_0) X1) (subf (extractStridedSlice S48x17x128x128 ![0, 0, 0, 0] X0 Cert.ReferenceIdeal.Facts₀.slices_S48x34x128x128_S48x17x128x128_0_0_0_0) X1)) (constant S_ .f32 0x00000000#32) Cert.ReferenceIdeal.Facts₀.reducesTo_S48x17x128x128_S48x17_d2_3 Cert.ReferenceIdeal.Facts₀.h_S_) (broadcastInDim S48x17 ![] Cert.ReferenceIdeal.Facts₀.bcast_S_S48x17 (constant S_ .f32 0x46800000#32))) (uitofp .f32 (cmpf .ogt (Host.reduceAdd X1 (constant S_ .f32 0x00000000#32) Cert.ReferenceIdeal.Facts₀.reducesTo_S48x17x128x128_S48x17_d2_3 Cert.ReferenceIdeal.Facts₀.h_S_) (broadcastInDim S48x17 ![] Cert.ReferenceIdeal.Facts₀.bcast_S_S48x17 (constant S_ .f32 0x00000000#32))))) (constant S_ .f32 0x00000000#32) Cert.ReferenceIdeal.Facts₀.reducesTo_S48x17_S_d0_1 Cert.ReferenceIdeal.Facts₀.h_S_) (Host.reduceAdd (uitofp .f32 (cmpf .ogt (Host.reduceAdd X1 (constant S_ .f32 0x00000000#32) Cert.ReferenceIdeal.Facts₀.reducesTo_S48x17x128x128_S48x17_d2_3 Cert.ReferenceIdeal.Facts₀.h_S_) (broadcastInDim S48x17 ![] Cert.ReferenceIdeal.Facts₀.bcast_S_S48x17 (constant S_ .f32 0x00000000#32)))) (constant S_ .f32 0x00000000#32) Cert.ReferenceIdeal.Facts₀.reducesTo_S48x17_S_d0_1 Cert.ReferenceIdeal.Facts₀.h_S_)

/-- The first seventeen channels of the predictions: the index the reference's slice reads. -/
def up (i : S48x17x128x128.Idx) : S48x34x128x128.Idx := fun a => match a with
  | ⟨0, _⟩ => ⟨(i 0).val, (i 0).isLt⟩
  | ⟨1, _⟩ => ⟨(i 1).val, by have h1 : (i 1).val < 17 := (i 1).isLt; show (i 1).val < 34; omega⟩
  | ⟨2, _⟩ => ⟨(i 2).val, (i 2).isLt⟩
  | ⟨3, _⟩ => ⟨(i 3).val, (i 3).isLt⟩

/-- The reference's count of channels with positive target mass. -/
def refDen (X1 : FVec Ideal S48x17x128x128 .f32) : EReal :=
  ∑ a : Fin 48, ∑ c : Fin 17, msk (lanes X1 a c)

/-- The reference's sum of masked per-channel mean squared errors. -/
def refNum (X0 : FVec Ideal S48x34x128x128 .f32) (X1 : FVec Ideal S48x17x128x128 .f32) : EReal :=
  ∑ a : Fin 48, ∑ c : Fin 17,
    lanes (fun i => (X0 (up i) - X1 i) * (X0 (up i) - X1 i)) a c * Ideal.ofBits .f32 0x38800000#32 * msk (lanes X1 a c)

/-- The reference's mask of channel `(a, c)`. -/
theorem refMask_apply (X1 : FVec Ideal S48x17x128x128 .f32) (hR : S48x17x128x128.ReducesTo [2, 3] S48x17)
    (hS : 0 < S_.numel) (hB : S_.BroadcastsInDim S48x17 (![] : Fin 0 → Fin S48x17.rank)) (a : Fin 48) (c : Fin 17) :
    (uitofp .f32 (cmpf .ogt (Host.reduceAdd X1 (constant S_ .f32 0x00000000#32) hR hS)
      (broadcastInDim S48x17 ![] hB (constant S_ .f32 0x00000000#32))) : FVec Ideal S48x17 .f32) (ix2 a c)
      = msk (lanes X1 a c) := by
  show FloatOps.uitofp (F := Ideal) .f32 (FloatOps.cmpf (F := Ideal) .ogt
    (Ideal.hostReduceAdd hR X1 (Ideal.ofBits .f32 0x00000000#32) (ix2 a c))
    (broadcastInDim S48x17 ![] hB (constant (F := Ideal) S_ .f32 0x00000000#32) (ix2 a c))) = _
  rw [refRed23, broadcastInDim_apply _ hB _ (ix2 a c) ix0 (fun e => e.elim0)]
  show FloatOps.uitofp (F := Ideal) .f32 (FloatOps.cmpf (F := Ideal) .ogt
    (Ideal.ofBits .f32 0x00000000#32 + lanes X1 a c) (Ideal.ofBits .f32 0x00000000#32)) = _
  rw [Ideal.ofBits_zero_f32, zero_add]
  rfl

/-- The reference's denominator: the count. -/
theorem refDen_apply (X1 : FVec Ideal S48x17x128x128 .f32) (hR : S48x17x128x128.ReducesTo [2, 3] S48x17)
    (hS : 0 < S_.numel) (hB : S_.BroadcastsInDim S48x17 (![] : Fin 0 → Fin S48x17.rank))
    (hT : S48x17.ReducesTo [0, 1] S_) (j : S_.Idx) :
    (Host.reduceAdd (uitofp .f32 (cmpf .ogt (Host.reduceAdd X1 (constant S_ .f32 0x00000000#32) hR hS)
      (broadcastInDim S48x17 ![] hB (constant S_ .f32 0x00000000#32)))) (constant S_ .f32 0x00000000#32) hT hS
        : FVec Ideal S_ .f32) j = refDen X1 := by
  show Ideal.hostReduceAdd hT _ (Ideal.ofBits .f32 0x00000000#32) j = _
  rw [refRed01, Ideal.ofBits_zero_f32, zero_add]
  exact Finset.sum_congr rfl fun a _ => Finset.sum_congr rfl fun c _ => refMask_apply X1 hR hS hB a c

/-- The reference's squared differences summed over a channel's lanes, through its slice of the predictions. -/
theorem refSq_lanes (X0 : FVec Ideal S48x34x128x128 .f32) (X1 : FVec Ideal S48x17x128x128 .f32)
    (hSl : S48x34x128x128.Slices ![0, 0, 0, 0] S48x17x128x128) (a : Fin 48) (c : Fin 17) :
    lanes (mulf (subf (extractStridedSlice S48x17x128x128 ![0, 0, 0, 0] X0 hSl) X1)
      (subf (extractStridedSlice S48x17x128x128 ![0, 0, 0, 0] X0 hSl) X1) : FVec Ideal S48x17x128x128 .f32) a c
      = lanes (fun i => (X0 (up i) - X1 i) * (X0 (up i) - X1 i)) a c := by
  unfold lanes
  refine Finset.sum_congr rfl fun h _ => Finset.sum_congr rfl fun w _ => ?_
  show (extractStridedSlice S48x17x128x128 ![0, 0, 0, 0] X0 hSl (ix4 a c h w) - X1 (ix4 a c h w))
    * (extractStridedSlice S48x17x128x128 ![0, 0, 0, 0] X0 hSl (ix4 a c h w) - X1 (ix4 a c h w)) = _
  rw [extractStridedSlice_apply ![0, 0, 0, 0] X0 hSl (ix4 a c h w) (up (ix4 a c h w)) (fun e => match e with
    | ⟨0, _⟩ => by show a.val = 0 + a.val; omega
    | ⟨1, _⟩ => by show c.val = 0 + c.val; omega
    | ⟨2, _⟩ => by show h.val = 0 + h.val; omega
    | ⟨3, _⟩ => by show w.val = 0 + w.val; omega)]

/-- The reference's numerator: the sum of the masked per-channel means, each mean as the sum times 2⁻¹⁴. -/
theorem refNum_apply (X0 : FVec Ideal S48x34x128x128 .f32) (X1 : FVec Ideal S48x17x128x128 .f32)
    (hSl : S48x34x128x128.Slices ![0, 0, 0, 0] S48x17x128x128) (hR : S48x17x128x128.ReducesTo [2, 3] S48x17)
    (hS : 0 < S_.numel) (hB : S_.BroadcastsInDim S48x17 (![] : Fin 0 → Fin S48x17.rank))
    (hT : S48x17.ReducesTo [0, 1] S_) (j : S_.Idx) :
    (Host.reduceAdd (mulf (Host.divf (Host.reduceAdd (mulf (subf (extractStridedSlice S48x17x128x128 ![0, 0, 0, 0] X0 hSl) X1)
        (subf (extractStridedSlice S48x17x128x128 ![0, 0, 0, 0] X0 hSl) X1)) (constant S_ .f32 0x00000000#32) hR hS)
        (broadcastInDim S48x17 ![] hB (constant S_ .f32 0x46800000#32)))
      (uitofp .f32 (cmpf .ogt (Host.reduceAdd X1 (constant S_ .f32 0x00000000#32) hR hS)
        (broadcastInDim S48x17 ![] hB (constant S_ .f32 0x00000000#32)))))
      (constant S_ .f32 0x00000000#32) hT hS : FVec Ideal S_ .f32) j = refNum X0 X1 := by
  show Ideal.hostReduceAdd hT _ (Ideal.ofBits .f32 0x00000000#32) j = _
  rw [refRed01, Ideal.ofBits_zero_f32, zero_add]
  refine Finset.sum_congr rfl fun a _ => Finset.sum_congr rfl fun c _ => ?_
  show Ideal.div (Ideal.hostReduceAdd hR _ (Ideal.ofBits .f32 0x00000000#32) (ix2 a c))
    (broadcastInDim S48x17 ![] hB (constant (F := Ideal) S_ .f32 0x46800000#32) (ix2 a c)) * _ = _
  rw [refMask_apply, refRed23, broadcastInDim_apply _ hB _ (ix2 a c) ix0 (fun e => e.elim0)]
  show Ideal.div (Ideal.ofBits .f32 0x00000000#32 + _) (Ideal.ofBits .f32 0x46800000#32) * _ = _
  rw [Ideal.ofBits_zero_f32, zero_add, div_16384, refSq_lanes]

/-- The reference's loss is the quotient of its numerator by its count. -/
theorem refHm_apply (X0 : FVec Ideal S48x34x128x128 .f32) (X1 : FVec Ideal S48x17x128x128 .f32) (j : S_.Idx) :
    refHm X0 X1 j = Ideal.div (refNum X0 X1) (refDen X1) := by
  unfold refHm
  show Ideal.div (Host.reduceAdd (F := Ideal) _ _ _ _ j) (Host.reduceAdd (F := Ideal) _ _ _ _ j) = _
  rw [refNum_apply, refDen_apply]

/-! ## The precondition's last conjunct: the reference's count is positive -/

theorem den_pos (X0 : FVec Ideal S48x34x128x128 .f32) (X1 : FVec Ideal S48x17x128x128 .f32) (X2 : IVec S48x30x17x2 32)
    (hpre : Cert.Pre_finite_inputs.fn (F := Ideal) X0 X1 X2 = fun _ => 1#1) : 0 < refDen X1 := by
  have h := congrFun hpre ix0
  have h2 := (IntOp.andi_eq_one.mp h).2
  change Ideal.cmp .ogt (Host.reduceAdd (F := Ideal) _ _ _ _ ix0) (Ideal.ofBits .f32 0x00000000#32) = 1#1 at h2
  rw [refDen_apply, Ideal.ofBits_zero_f32] at h2
  exact (cmp_ogt_zero _).mp h2

/-! ## Blocks of the kernel against rows of the reference -/

section Blocks

variable (X0 : FVec Ideal S48x34x128x128 .f32) (X1 : FVec Ideal S48x17x128x128 .f32)
  (b0 b1 : ℕ → Vec Ideal S6x17x128x128 .f32)
  (hb0 : ∀ t, t < 8 → ∀ (y : S6x17x128x128.Idx) (i : S48x34x128x128.Idx), (i 0).val = 6 * t + (y 0).val →
    (i 1).val = (y 1).val → (i 2).val = (y 2).val → (i 3).val = (y 3).val → b0 t y = X0 i)
  (hb1 : ∀ t, t < 8 → ∀ (y : S6x17x128x128.Idx) (i : S48x17x128x128.Idx), (i 0).val = 6 * t + (y 0).val →
    (i 1).val = (y 1).val → (i 2).val = (y 2).val → (i 3).val = (y 3).val → b1 t y = X1 i)

include hb1 in
/-- Row `k` of block `t` of the targets is row `6 t + k` of the whole array, channel by channel. -/
theorem lanes_b1 (t : ℕ) (ht : t < 8) (k : Fin 6) (c : Fin 17) :
    lanes (b1 t) k c = lanes X1 (⟨6 * t + k.val, by have := k.isLt; omega⟩ : Fin 48) c := by
  unfold lanes
  refine Finset.sum_congr rfl fun h _ => Finset.sum_congr rfl fun w _ => ?_
  exact hb1 t ht (ix4 k c h w) (ix4 (⟨6 * t + k.val, by have := k.isLt; omega⟩ : Fin 48) c h w) rfl rfl rfl rfl

include hb0 hb1 in
/-- Likewise the squared differences. -/
theorem lanes_sq (t : ℕ) (ht : t < 8) (k : Fin 6) (c : Fin 17) :
    lanes (fun i => (b0 t i - b1 t i) * (b0 t i - b1 t i)) k c
      = lanes (fun i => (X0 (up i) - X1 i) * (X0 (up i) - X1 i)) (⟨6 * t + k.val, by have := k.isLt; omega⟩ : Fin 48) c := by
  unfold lanes
  refine Finset.sum_congr rfl fun h _ => Finset.sum_congr rfl fun w _ => ?_
  show (b0 t (ix4 k c h w) - b1 t (ix4 k c h w)) * (b0 t (ix4 k c h w) - b1 t (ix4 k c h w)) = _
  rw [hb0 t ht (ix4 k c h w) (up (ix4 (⟨6 * t + k.val, by have := k.isLt; omega⟩ : Fin 48) c h w)) rfl rfl rfl rfl,
    hb1 t ht (ix4 k c h w) (ix4 (⟨6 * t + k.val, by have := k.isLt; omega⟩ : Fin 48) c h w) rfl rfl rfl rfl]

include hb1 in
/-- The eight blocks' counts add up to the reference's count. -/
theorem den_eq : ∑ t ∈ Finset.range 8, blkD (b1 t) = refDen X1 := by
  unfold refDen
  rw [sum_rows (fun a => ∑ c : Fin 17, msk (lanes X1 a c)) (fun t k => ∑ c : Fin 17, msk (lanes (b1 t) k c))
    (fun t ht k => Finset.sum_congr rfl fun c _ => by rw [lanes_b1 X1 b1 hb1 t ht k c])]
  rfl

include hb0 hb1 in
/-- The eight blocks' masked errors add up to the reference's numerator. -/
theorem num_eq : ∑ t ∈ Finset.range 8, blkN (b0 t) (b1 t) = refNum X0 X1 := by
  unfold refNum
  rw [sum_rows
    (fun a => ∑ c : Fin 17, lanes (fun i => (X0 (up i) - X1 i) * (X0 (up i) - X1 i)) a c
      * Ideal.ofBits .f32 0x38800000#32 * msk (lanes X1 a c))
    (fun t k => ∑ c : Fin 17, lanes (fun i => (b0 t i - b1 t i) * (b0 t i - b1 t i)) k c
      * Ideal.ofBits .f32 0x38800000#32 * msk (lanes (b1 t) k c))
    (fun t ht k => Finset.sum_congr rfl fun c _ => by
      rw [lanes_b1 X1 b1 hb1 t ht k c, lanes_sq X0 X1 b0 b1 hb0 hb1 t ht k c])]
  rfl

end Blocks

/-! ## The loss -/

/-- The kernel's loss — its numerator accumulator over its guarded count accumulator after the last of the eight
    points — is the reference's loss, whenever the reference's count is positive. -/
theorem hm_value (X0 : FVec Ideal S48x34x128x128 .f32) (X1 : FVec Ideal S48x17x128x128 .f32) (X2 : IVec S48x30x17x2 32)
    (hpre : Cert.Pre_finite_inputs.fn (F := Ideal) X0 X1 X2 = fun _ => 1#1)
    (b0 b1 : ℕ → Vec Ideal S6x17x128x128 .f32)
    (hb0 : ∀ t, t < 8 → ∀ (y : S6x17x128x128.Idx) (i : S48x34x128x128.Idx), (i 0).val = 6 * t + (y 0).val →
      (i 1).val = (y 1).val → (i 2).val = (y 2).val → (i 3).val = (y 3).val → b0 t y = X0 i)
    (hb1 : ∀ t, t < 8 → ∀ (y : S6x17x128x128.Idx) (i : S48x17x128x128.Idx), (i 0).val = 6 * t + (y 0).val →
      (i 1).val = (y 1).val → (i 2).val = (y 2).val → (i 3).val = (y 3).val → b1 t y = X1 i) :
    shapeCast S_ (k0_pay2 (Acc.accD b1 7) (Acc.accN b0 b1 7)) Facts₀.shapeCasts_S1x1_S_ = refHm X0 X1 := by
  funext j
  rw [refHm_apply]
  rw [shapeCast_apply _ _ j (ix2 (0 : Fin 1) (0 : Fin 1)) (by
    rw [Shape.rowMajor_val_two]
    have h1 : (S_.rowMajor j).val < 1 := (S_.rowMajor j).isLt
    show 0 * 1 + 0 = (S_.rowMajor j).val
    omega)]
  unfold k0_pay2
  try dsimp only
  show Ideal.div (Acc.accN b0 b1 7 _)
    (Scalar.select (Ideal.cmp .ogt (Acc.accD b1 7 _) (Ideal.ofBits .f32 0x00000000#32)) (Acc.accD b1 7 _)
      (Ideal.ofBits .f32 0x3F800000#32)) = _
  rw [accN_apply, accD_apply, den_eq X1 b1 hb1, num_eq X0 X1 b0 b1 hb0 hb1, Ideal.ofBits_zero_f32,
    (cmp_ogt_zero _).mpr (den_pos X0 X1 X2 hpre), select_one]

end Cert.KernelIdeal.HmValue

end
-- ==== Proof.Bridge.lean ====
/-
  The two programs agree at the ideal values.

  The program under test ends with its scalar result at the reshape of the quotient of its two final running sums,
  and with its other two results at the shared push and pull chains of its first and third arguments; the
  reference ends with its scalar result at the masked mean squared error of its first two arguments and with the
  same two chains of its first and third. The blocks the two input windows cut out of the first two arguments
  are rows `6 t … 6 t + 5` of those arguments, so the quotient is the masked mean squared error (the value lemma for
  the loss, under the precondition's conjunct that the count of unmasked channels is positive); from memories that
  agree on the arguments the three results are therefore equal, and neither run changes an argument.
-/
import proofs.«174953_j30580167147966_1_alg».proof.Defs
import proofs.«174953_j30580167147966_1_alg».proof.Proof.KIPost
import proofs.«174953_j30580167147966_1_alg».proof.Proof.KIBlocks
import proofs.«174953_j30580167147966_1_alg».proof.Proof.HmValue
import proofs.«174953_j30580167147966_1_alg».proof.Proof.RefPost

noncomputable section

namespace Cert.Proof.Bridge

open Idealize.ShloMosaic Idealize.ShloMosaic.TcCoe Idealize.SL.Sem
open Cert.KernelIdeal Cert.KernelIdeal.Gen

/-- The reference's loss named on the two sides is one and the same term. -/
theorem refHm_eq (X0 : FVec Ideal S48x34x128x128 .f32) (X1 : FVec Ideal S48x17x128x128 .f32) :
    Cert.KernelIdeal.HmValue.refHm X0 X1 = Cert.ReferenceIdeal.RefValues.refHm (F := Ideal) X0 X1 := rfl

/-- The kernel's loss, the reshape of the quotient of the two final running sums over the blocks the two input
    windows cut out of the first two arguments, is the reference's loss of those two arguments. -/
theorem hm_bridge (m : (ℓ : Loc nD τ sig) → Buf (Elt Ideal) ℓ) (hpre : Cert.Pre_KernelIdeal m) (c : Dev nD) :
    shapeCast S_ (Frame.quot m c) Facts₀.shapeCasts_S1x1_S_
      = Cert.KernelIdeal.HmValue.refHm (m ((c.tc : Thread nD τ).loc main_arg0)) (m ((c.tc : Thread nD τ).loc main_arg1)) := by
  have hN : ∀ t, t < 8 → t < cfg0.N := fun t ht => lt_of_lt_of_eq ht N_0.symm
  exact Cert.KernelIdeal.HmValue.hm_value _ _ (m ((c.tc : Thread nD τ).loc main_arg2)) (hpre c)
    (Frame.b0 m c) (Frame.b1 m c)
    (fun t ht y i h0 h1 h2 h3 =>
      (congrFun (Frame.b0_at m c ⟨t, hN t ht⟩) y).trans
        ((Frame.iblk0_read m c ⟨t, hN t ht⟩ y i h0 h1 h2 h3).trans (congrFun (Frame.V_main_arg0 m c) i)))
    (fun t ht y i h0 h1 h2 h3 =>
      (congrFun (Frame.b1_at m c ⟨t, hN t ht⟩) y).trans
        ((Frame.iblk1_read m c ⟨t, hN t ht⟩ y i h0 h1 h2 h3).trans (congrFun (Frame.V_main_arg1 m c) i)))

/-- At the ideal values the two programs, run from memories that agree on the three arguments, end with equal
    results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast S_ (Frame.quot m c) Facts₀.shapeCasts_S1x1_S_,
    fun c => Cert.KernelIdeal.Tail.push (m ((c.tc : Thread nD τ).loc main_arg0)) (m ((c.tc : Thread nD τ).loc main_arg2)),
    fun c => Cert.KernelIdeal.Tail.pull (m ((c.tc : Thread nD τ).loc main_arg0)) (m ((c.tc : Thread nD τ).loc main_arg2)),
    Frame.run_values m ρ, ?_⟩
  refine (θ_run (Cert.ReferenceIdeal.defs (F := Ideal)) _ _).mono (fun r h c => ?_)
    (Cert.ReferenceIdeal.RefPost.run_values (F := Ideal) m' ρ')
  obtain ⟨h15, h79, h51, ha0, ha1, ha2⟩ := h c
  obtain ⟨e0, e1, e2⟩ := hagree c
  refine ⟨h15.trans ?_, h79.trans ?_, h51.trans ?_, ha0, ha1, ha2⟩
  · rw [e0, e1]
    exact ((hm_bridge m hpre c).trans (refHm_eq _ _)).symm
  · rw [e0, e2]
  · rw [e0, e2]

end Cert.Proof.Bridge

end
-- ==== Proof.lean ====
/-
  A heatmap mean-squared-error loss with associative-embedding push and pull terms, computed by a kernel and by
  a plain reference, are the same three extended-real results.

  The kernel walks the batch in eight blocks of six images. At each block it forms, per image and heatmap channel,
  the sum over the 128 x 128 pixels of the squared difference of prediction and target, scales it by 2^-14 (the
  reciprocal of the pixel count, an exact binary fraction), masks it by whether the channel's target mass is
  positive, and adds the block's total to a running numerator; the count of masked channels goes to a running
  denominator. After the last block it stores numerator / (denominator if positive, else one). The reference takes
  the mean over pixels by dividing by 16384, masks, sums over all 48 x 17 channels at once and divides by the mask
  count. Extended-real addition is commutative and associative, so the eight block totals are the one total;
  dividing by 16384 is multiplying by 2^-14; and under the precondition that some channel has positive target
  mass (outside it the reference itself divides zero by zero) the kernel's guard leaves the denominator as it is.
  The push and pull terms are the same chain of host operations applied to the same two arguments in both
  programs.

  Frames: the word-level kernel, its idealization and the reference each run to the end without a fault and leave
  their three argument arrays as they found them. The idealization rewrote no operation, so there is nothing to
  preserve.
-/
import proofs.«174953_j30580167147966_1_alg».proof.Defs
import proofs.«174953_j30580167147966_1_alg».proof.Proof.Gen.Kernel
import proofs.«174953_j30580167147966_1_alg».proof.Proof.Gen.Kernel.Skeleton
import proofs.«174953_j30580167147966_1_alg».proof.Proof.Gen.Kernel.Launch
import proofs.«174953_j30580167147966_1_alg».proof.Proof.Gen.Kernel.Points
import proofs.«174953_j30580167147966_1_alg».proof.Proof.Gen.KernelIdeal
import proofs.«174953_j30580167147966_1_alg».proof.Proof.Gen.KernelIdeal.Skeleton
import proofs.«174953_j30580167147966_1_alg».proof.Proof.Gen.KernelIdeal.Launch
import proofs.«174953_j30580167147966_1_alg».proof.Proof.Gen.KernelIdeal.Points
import proofs.«174953_j30580167147966_1_alg».proof.Proof.Gen.ReferenceIdeal
import proofs.«174953_j30580167147966_1_alg».proof.Proof.Gen.Pre_finite_inputs
import proofs.«174953_j30580167147966_1_alg».proof.Proof.KPost
import proofs.«174953_j30580167147966_1_alg».proof.Proof.KIPost
import proofs.«174953_j30580167147966_1_alg».proof.Proof.RefPost
import proofs.«174953_j30580167147966_1_alg».proof.Proof.Bridge
import Idealize.ShloMosaic.Adequacy
import Idealize.ShloMosaic.Init

noncomputable section

namespace Cert.Proof

open Idealize.ShloMosaic Idealize.SL.Sem

/-- The word-level kernel runs to the end and keeps its arguments. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- And the reference. -/
theorem frame_ri : Cert.frame_ReferenceIdeal := fun m ρ _ => Cert.ReferenceIdeal.RefPost.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
